-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S3x768x768 : Shape := ⟨3, ![3, 768, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S3x768x768 : S_.BroadcastsInDim S3x768x768 (![] : Fin 0 → Fin S3x768x768.rank)
  reducesTo_S3x768x768_S_d0_1_2 : S3x768x768.ReducesTo [0, 1, 2] S_

variable [Facts]

def fn {F : FTy → Type} [FloatOps F] (main_arg0 : FVec F S8x2048x768 .f32) (main_arg1 : FVec F S3x768x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S3x768x768 .f32 := Host.absf main_arg1
  let main_cst_0 : FVec F S_ .f32 := constant S_ .f32 0x7F800000#32
  let main_v5 : FVec F S3x768x768 .f32 := broadcastInDim S3x768x768 ![] bcast_S_S3x768x768 main_cst_0
  let main_v6 : IVec S3x768x768 1 := cmpf .olt main_v4 main_v5
  let main_c_1 : IVec S_ 1 := constantI S_ 1 1#1
  let main_v7 : IVec S_ 1 := (fun x v => Host.reduce IntOp.andi x v reducesTo_S3x768x768_S_d0_1_2 h_S_) main_v6 main_c_1
  let main_v8 : IVec S_ 1 := andi main_v3 main_v7
  main_v8
-- ==== Kernel.lean ====
abbrev S8x2048x768 : Shape := ⟨3, ![8, 2048, 768]⟩
abbrev S3x768x768 : Shape := ⟨3, ![3, 768, 768]⟩
abbrev S16384x768 : Shape := ⟨2, ![16384, 768]⟩
abbrev S1x768x768 : Shape := ⟨3, ![1, 768, 768]⟩
abbrev S768x768 : Shape := ⟨2, ![768, 768]⟩
abbrev S768x2304 : Shape := ⟨2, ![768, 2304]⟩
abbrev S512x768 : Shape := ⟨2, ![512, 768]⟩
abbrev S1x256x768 : Shape := ⟨3, ![1, 256, 768]⟩
abbrev S1x2048x768 : Shape := ⟨3, ![1, 2048, 768]⟩
abbrev S256x768 : Shape := ⟨2, ![256, 768]⟩
abbrev S2048x768 : Shape := ⟨2, ![2048, 768]⟩
abbrev S768x2048 : Shape := ⟨2, ![768, 2048]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S8x2048x768, .f32⟩
  | .hbm, ⟨1, _⟩ => ⟨S3x768x768, .f32⟩
  | .hbm, ⟨2, _⟩ => ⟨S16384x768, .f32⟩
  | .hbm, ⟨3, _⟩ => ⟨S1x768x768, .f32⟩
  | .hbm, ⟨4, _⟩ => ⟨S768x768, .f32⟩
  | .hbm, ⟨5, _⟩ => ⟨S1x768x768, .f32⟩
  | .hbm, ⟨6, _⟩ => ⟨S768x768, .f32⟩
  | .hbm, ⟨7, _⟩ => ⟨S1x768x768, .f32⟩
  | .hbm, ⟨8, _⟩ => ⟨S768x768, .f32⟩
  | .hbm, ⟨9, _⟩ => ⟨S768x2304, .f32⟩
  | .hbm, ⟨10, _⟩ => ⟨S768x2304, .bf16⟩
  | .hbm, ⟨11, _⟩ => ⟨S16384x768, .bf16⟩
  | .hbm, ⟨12, _⟩ => ⟨S16384x768, .bf16⟩
  | .hbm, ⟨13, _⟩ => ⟨S16384x768, .bf16⟩
  | .hbm, ⟨14, _⟩ => ⟨S8x2048x768, .bf16⟩
  | .hbm, ⟨15, _⟩ => ⟨S8x2048x768, .bf16⟩
  | .hbm, ⟨16, _⟩ => ⟨S8x2048x768, .bf16⟩
  | .hbm, ⟨17, _⟩ => ⟨S8x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S1x256x768, .bf16⟩
  | .local _ .vmem, ⟨10, _⟩ => ⟨S1x256x768, .bf16⟩
  | .local _ .vmem, ⟨11, _⟩ => ⟨S1x2048x768, .bf16⟩
  | .local _ .vmem, ⟨12, _⟩ => ⟨S1x2048x768, .bf16⟩
  | .local _ .vmem, ⟨13, _⟩ => ⟨S1x2048x768, .bf16⟩
  | .local _ .vmem, ⟨14, _⟩ => ⟨S1x2048x768, .bf16⟩
  | .local _ .vmem, ⟨15, _⟩ => ⟨S1x256x768, .f32⟩
  | .local _ .vmem, ⟨16, _⟩ => ⟨S1x256x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v9_2 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x768_S16384x768 : S8x2048x768.ShapeCasts S16384x768
  slices_S3x768x768_S1x768x768_0_0_0 : S3x768x768.Slices ![0, 0, 0] S1x768x768
  shapeCasts_S1x768x768_S768x768 : S1x768x768.ShapeCasts S768x768
  slices_S3x768x768_S1x768x768_1_0_0 : S3x768x768.Slices ![1, 0, 0] S1x768x768
  slices_S3x768x768_S1x768x768_2_0_0 : S3x768x768.Slices ![2, 0, 0] S1x768x768
  concatenates_S768x768_S768x768_S768x768_S768x2304_d1 : Shape.Concatenates [S768x768, S768x768, S768x768] S768x2304 1
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  slices_S768x2304_o0_0_S768x768 : S768x2304.Slices ![0, 0] S768x768
  slices_S768x2304_o0_768_S768x768 : S768x2304.Slices ![0, 768] S768x768
  slices_S768x2304_o0_1536_S768x768 : S768x2304.Slices ![0, 1536] S768x768
  packedbf16_S512x768_S512x768_0_0 : (Rect.unit (s := S512x768) ![0, 0] S512x768.size inb_S512x768_S512x768_0_0).PackedRows (EltTy.packing .bf16)
  shapeCasts_S16384x768_S8x2048x768 : S16384x768.ShapeCasts S8x2048x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  transposes_S2048x768_p1_0_S768x2048 : S2048x768.Transposes [1, 0] S768x2048
  reduces_S256x2048_S256 : S256x2048.Reduces [1] S256
  shapeCasts_S256_S256x1 : S256.ShapeCasts S256x1
  broadcasts_S256x1_S256x2048 : S256x1.Broadcasts S256x2048
  broadcasts_S256x1_S256x768 : S256x1.Broadcasts S256x768
  shapeCasts_S256x768_S1x256x768 : S256x768.ShapeCasts S1x256x768
  dot_S512x768_S768x768_S512x768_1_0_0_1_n_n_wf : DotDims.WF S512x768 S768x768 S512x768 [1] [0] [0] [1] [] []
  dot_S256x768_S768x2048_S256x2048_1_0_0_1_n_n_wf : DotDims.WF S256x768 S768x2048 S256x2048 [1] [0] [0] [1] [] []
  dot_S256x2048_S2048x768_S256x768_1_0_0_1_n_n_wf : DotDims.WF S256x2048 S2048x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S16384x768.size a
  hwx0_2 : ∀ i : grid0.Coords, EltTy.bits .bf16 = 32 ∨ (Rect.block (s := S16384x768) S512x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S16384x768.size a
  hwx0_3 : ∀ i : grid0.Coords, EltTy.bits .bf16 = 32 ∨ (Rect.block (s := S16384x768) S512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S16384x768.size a
  hwx0_4 : ∀ i : grid0.Coords, EltTy.bits .bf16 = 32 ∨ (Rect.block (s := S16384x768) S512x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S8x2048x768.size a
  hwx1_0 : ∀ i : grid1.Coords, EltTy.bits .bf16 = 32 ∨ (Rect.block (s := S8x2048x768) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S8x2048x768.size a
  hwx1_1 : ∀ i : grid1.Coords, EltTy.bits .bf16 = 32 ∨ (Rect.block (s := S8x2048x768) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S8x2048x768.size a
  hwx1_2 : ∀ i : grid1.Coords, EltTy.bits .bf16 = 32 ∨ (Rect.block (s := S8x2048x768) S1x2048x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x768.size a ≤ S8x2048x768.size a
  hwx1_3 : ∀ i : grid1.Coords, EltTy.bits .f32 = 32 ∨ (Rect.block (s := S8x2048x768) S1x256x768.size (cc1_transform_3 i) (hinb1_3 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S256x768_S768x2048_S256x2048_1_0_0_1_n_n : DotDims S256x768 S768x2048 S256x2048 where
  lhsContracting := [1]
  rhsContracting := [0]
  lhsNonContracting := [0]
  rhsNonContracting := [1]
  lhsBatch := []
  rhsBatch := []
  wf := dot_S256x768_S768x2048_S256x2048_1_0_0_1_n_n_wf
def dot_S256x2048_S2048x768_S256x768_1_0_0_1_n_n : DotDims S256x2048 S2048x768 S256x768 where
  lhsContracting := [1]
  rhsContracting := [0]
  lhsNonContracting := [0]
  rhsNonContracting := [1]
  lhsBatch := []
  rhsBatch := []
  wf := dot_S256x2048_S2048x768_S256x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S512x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_2) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x768 : Shape := ⟨3, ![8, 2048, 768]⟩
abbrev S3x768x768 : Shape := ⟨3, ![3, 768, 768]⟩
abbrev S1x768x768 : Shape := ⟨3, ![1, 768, 768]⟩
abbrev S768x768 : Shape := ⟨2, ![768, 768]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S3x768x768, .f32⟩
  | .hbm, ⟨2, _⟩ => ⟨S1x768x768, .f32⟩
  | .hbm, ⟨3, _⟩ => ⟨S768x768, .f32⟩
  | .hbm, ⟨4, _⟩ => ⟨S8x2048x768, .f32⟩
  | .hbm, ⟨5, _⟩ => ⟨S1x768x768, .f32⟩
  | .hbm, ⟨6, _⟩ => ⟨S768x768, .f32⟩
  | .hbm, ⟨7, _⟩ => ⟨S8x2048x768, .f32⟩
  | .hbm, ⟨8, _⟩ => ⟨S1x768x768, .f32⟩
  | .hbm, ⟨9, _⟩ => ⟨S768x768, .f32⟩
  | .hbm, ⟨10, _⟩ => ⟨S8x2048x768, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S3x768x768_S1x768x768_0_0_0 : S3x768x768.Slices ![0, 0, 0] S1x768x768
  shapeCasts_S1x768x768_S768x768 : S1x768x768.ShapeCasts S768x768
  slices_S3x768x768_S1x768x768_1_0_0 : S3x768x768.Slices ![1, 0, 0] S1x768x768
  slices_S3x768x768_S1x768x768_2_0_0 : S3x768x768.Slices ![2, 0, 0] S1x768x768
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x768_S8x2048x768_2_0_01_1_n_n_wf : DotDims.WF S8x2048x768 S768x768 S8x2048x768 [2] [0] [0, 1] [1] [] []
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S768x768_S8x2048x768_2_0_01_1_n_n : DotDims S8x2048x768 S768x768 S8x2048x768 where
  lhsContracting := [2]
  rhsContracting := [0]
  lhsNonContracting := [0, 1]
  rhsNonContracting := [1]
  lhsBatch := []
  rhsBatch := []
  wf := dot_S8x2048x768_S768x768_S8x2048x768_2_0_01_1_n_n_wf
def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.BitsRegion0.lean ====
/-
  The projection region of `Kernel`: one grid point multiplies a 512-row block of the flattened input by the three
  768-column thirds of the joined weight matrix and stores the three products, each into its own output block.
  Stated at any buffer contents `V` found when the region is entered: what each output's staging buffer holds
  after the body (the canon of its one whole-block store over the payload of the two input blocks), the body's
  triple, the pipeline's proof data and the body obligation at a generic grid point.
-/
import proofs.«159391_j18391049961927_2_alg».proof.Proof.Gen.Kernel.Launch
import proofs.«159391_j18391049961927_2_alg».proof.Proof.Gen.Kernel.Skeleton
import proofs.«159391_j18391049961927_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds their block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×768 block and the whole 768×2304 matrix, as the body's accesses name them. -/
abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0

/-- The three output buffers after the body: rows times the first, second and third 768 columns of the weights. -/
def out0_2 (x0 : Vec F S512x768 .f32) (x1 : Vec F S768x2304 .bf16) : Vec F S512x768 .bf16 :=
  View.canon [⟨r0_0, k0_pay3 (View.ld x0 r0_0) (View.ld x1 r0_1)⟩]
def out0_3 (x0 : Vec F S512x768 .f32) (x1 : Vec F S768x2304 .bf16) : Vec F S512x768 .bf16 :=
  View.canon [⟨r0_0, k0_pay4 (View.ld x0 r0_0) (View.ld x1 r0_1)⟩]
def out0_4 (x0 : Vec F S512x768 .f32) (x1 : Vec F S768x2304 .bf16) : Vec F S512x768 .bf16 :=
  View.canon [⟨r0_0, k0_pay5 (View.ld x0 r0_0) (View.ld x1 r0_1)⟩]

/-- One store of the whole block covers the block. -/
theorem cover0 (p0 : Vec F S512x768 .bf16) (y : S512x768.Idx) :
    ∃ pc ∈ ([⟨r0_0, p0⟩] : List (View.Piece (Elt F) S512x768 .bf16)), y ∈ pc.1.set :=
  View.cover_of_tiled [⟨r0_0, p0⟩] S512x768.size (by rfl) y

set_option maxHeartbeats 1000000 in
/-- The body on whole staging memrefs: the two inputs are read and left as found, each output ends at its product. -/
theorem sound_kernel0 (c : Dev nD) (E : Set ℕ) (i : grid0.Coords) (arg1 : Memref sig .tc .vmem S512x768 .f32) (harg1 : arg1.IsWhole) (arg2 : Memref sig .tc .vmem S768x2304 .bf16) (harg2 : arg2.IsWhole)
    (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole)
    (x0 : Vec F S512x768 .f32) (x1 : Vec F S768x2304 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the projection pipeline on core `c`: inputs stay at their blocks, outputs end at the products. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.BitsRegion1.lean ====
/-
  The attention region of `Kernel`: one grid point takes a 256-row block of queries and the whole key and value
  matrices of one batch entry, and stores the 256×768 block of normalised weighted values. Stated at any buffer
  contents `V` found when the region is entered: what the output's staging buffer holds after the body (the canon
  of its one whole-block store over the payload of the three input blocks), the body's triple, the pipeline's proof
  data and the body obligation at a generic grid point.
-/
import proofs.«159391_j18391049961927_2_alg».proof.Proof.Gen.Kernel.Launch
import proofs.«159391_j18391049961927_2_alg».proof.Proof.Gen.Kernel.Skeleton
import proofs.«159391_j18391049961927_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds their block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch entry's keys at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 1×256×768 block and the whole 1×2048×768 block, as the body's accesses name them. -/
abbrev r1_0 : Rect S1x256x768 := Rect.unit (s := S1x256x768) ![0, 0, 0] S1x256x768.size inb_S1x256x768_S1x256x768_0_0_0
abbrev r1_1 : Rect S1x2048x768 := Rect.unit (s := S1x2048x768) ![0, 0, 0] S1x2048x768.size inb_S1x2048x768_S1x2048x768_0_0_0

/-- The output buffer after the body: the attention of the query block over the keys and values. -/
def out1_3 (x0 : Vec F S1x256x768 .bf16) (x1 : Vec F S1x2048x768 .bf16) (x2 : Vec F S1x2048x768 .bf16) : Vec F S1x256x768 .f32 :=
  View.canon [⟨r1_0, k1_pay1 (View.ld x0 r1_0) (View.ld x1 r1_1) (View.ld x2 r1_1)⟩]

/-- One store of the whole block covers the block. -/
theorem cover1 (p0 : Vec F S1x256x768 .f32) (y : S1x256x768.Idx) :
    ∃ pc ∈ ([⟨r1_0, p0⟩] : List (View.Piece (Elt F) S1x256x768 .f32)), y ∈ pc.1.set :=
  View.cover_of_tiled [⟨r1_0, p0⟩] S1x256x768.size (by rfl) y

set_option maxHeartbeats 1000000 in
/-- The body on whole staging memrefs: the three inputs are read and left as found, the output ends at the attention block. -/
theorem sound_kernel1 (c : Dev nD) (E : Set ℕ) (i : grid1.Coords) (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S1x256x768 .f32) (harg5 : arg5.IsWhole)
    (x0 : Vec F S1x256x768 .bf16) (x1 : Vec F S1x2048x768 .bf16) (x2 : Vec F S1x2048x768 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the attention pipeline on core `c`: inputs stay at their blocks, the output ends at the attention block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.BitsRun.lean ====
/-
  The run of `Kernel`'s @main, segment by segment: host operations, the projection region, three reshapes, the
  attention region. The buffer contents at each boundary are a fold from the launch memory (a stretch of host
  operations applies them; a region replaces its arrays by what its write-backs leave and keeps every other buffer);
  every weakly fair execution terminates with each unscoped buffer at the last boundary's contents, and neither
  argument array is written on the way.
-/
import proofs.«159391_j18391049961927_2_alg».proof.Proof.BitsRegion0
import proofs.«159391_j18391049961927_2_alg».proof.Proof.BitsRegion1

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the projection region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one and no region stages one as an output -/

theorem W1_of_not_written (c : Dev nD) (b : Ref sig .tc)
    (h : b ∉ ([main_v0, main_v1, main_v2, main_v3, main_v4, main_v5, main_v6, main_v7, main_v8] : List (Ref sig .tc))) :
    W1 m ρ c (Proc.devRef .tc b) = W0 m ρ c (Proc.devRef .tc b) := by
  simp only [List.mem_cons, List.not_mem_nil, or_false, not_or] at h
  obtain ⟨h0, h1, h2, h3, h4, h5, h6, h7, h8⟩ := h
  refine StableHlo.after_of_forall_not_mem (b := Proc.devRef .tc b) _ _ (List.forall_iff_forall_mem.mp ?_)
  simp only [hostOps0, List.Forall, StableHlo.nullary_writes, StableHlo.unary_writes, StableHlo.binary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8⟩

theorem W3_of_not_written (c : Dev nD) (b : Ref sig .tc)
    (h : b ∉ ([main_v10, main_v11, main_v12] : List (Ref sig .tc))) :
    W3 m ρ c (Proc.devRef .tc b) = W2 m ρ c (Proc.devRef .tc b) := by
  simp only [List.mem_cons, List.not_mem_nil, or_false, not_or] at h
  obtain ⟨h0, h1, h2⟩ := h
  refine StableHlo.after_of_forall_not_mem (b := Proc.devRef .tc b) _ _ (List.forall_iff_forall_mem.mp ?_)
  simp only [hostOps1, List.Forall, StableHlo.reshape_writes, Finset.mem_singleton]
  exact ⟨StableHlo.devRef_ne_of_ne h0, StableHlo.devRef_ne_of_ne h1, StableHlo.devRef_ne_of_ne h2⟩

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.Kernel.Run

end
-- ==== Proof.IdealRegion0.lean ====
/-
  The projection region of `KernelIdeal`: one grid point multiplies a 512-row block of the flattened input by the three
  768-column thirds of the joined weight matrix and stores the three products, each into its own output block.
  Stated at any buffer contents `V` found when the region is entered: what each output's staging buffer holds
  after the body (the canon of its one whole-block store over the payload of the two input blocks), the body's
  triple, the pipeline's proof data and the body obligation at a generic grid point.
-/
import proofs.«159391_j18391049961927_2_alg».proof.Proof.Gen.KernelIdeal.Launch
import proofs.«159391_j18391049961927_2_alg».proof.Proof.Gen.KernelIdeal.Skeleton
import proofs.«159391_j18391049961927_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds their block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point, though it is fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 512×768 block and the whole 768×2304 matrix, as the body's accesses name them. -/
abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0

/-- The three output buffers after the body: rows times the first, second and third 768 columns of the weights. -/
def out0_2 (x0 : Vec F S512x768 .f32) (x1 : Vec F S768x2304 .bf16) : Vec F S512x768 .bf16 :=
  View.canon [⟨r0_0, k0_pay3 (View.ld x0 r0_0) (View.ld x1 r0_1)⟩]
def out0_3 (x0 : Vec F S512x768 .f32) (x1 : Vec F S768x2304 .bf16) : Vec F S512x768 .bf16 :=
  View.canon [⟨r0_0, k0_pay4 (View.ld x0 r0_0) (View.ld x1 r0_1)⟩]
def out0_4 (x0 : Vec F S512x768 .f32) (x1 : Vec F S768x2304 .bf16) : Vec F S512x768 .bf16 :=
  View.canon [⟨r0_0, k0_pay5 (View.ld x0 r0_0) (View.ld x1 r0_1)⟩]

/-- One store of the whole block covers the block. -/
theorem cover0 (p0 : Vec F S512x768 .bf16) (y : S512x768.Idx) :
    ∃ pc ∈ ([⟨r0_0, p0⟩] : List (View.Piece (Elt F) S512x768 .bf16)), y ∈ pc.1.set :=
  View.cover_of_tiled [⟨r0_0, p0⟩] S512x768.size (by rfl) y

set_option maxHeartbeats 1000000 in
/-- The body on whole staging memrefs: the two inputs are read and left as found, each output ends at its product. -/
theorem sound_kernel0 (c : Dev nD) (E : Set ℕ) (i : grid0.Coords) (arg1 : Memref sig .tc .vmem S512x768 .f32) (harg1 : arg1.IsWhole) (arg2 : Memref sig .tc .vmem S768x2304 .bf16) (harg2 : arg2.IsWhole)
    (arg3 : Memref sig .tc .vmem S512x768 .bf16) (harg3 : arg3.IsWhole) (arg4 : Memref sig .tc .vmem S512x768 .bf16) (harg4 : arg4.IsWhole) (arg5 : Memref sig .tc .vmem S512x768 .bf16) (harg5 : arg5.IsWhole)
    (x0 : Vec F S512x768 .f32) (x1 : Vec F S768x2304 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the projection pipeline on core `c`: inputs stay at their blocks, outputs end at the products. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.IdealRegion1.lean ====
/-
  The attention region of `KernelIdeal`: one grid point takes a 256-row block of queries and the whole key and value
  matrices of one batch entry, and stores the 256×768 block of normalised weighted values. Stated at any buffer
  contents `V` found when the region is entered: what the output's staging buffer holds after the body (the canon
  of its one whole-block store over the payload of the three input blocks), the body's triple, the pipeline's proof
  data and the body obligation at a generic grid point.
-/
import proofs.«159391_j18391049961927_2_alg».proof.Proof.Gen.KernelIdeal.Launch
import proofs.«159391_j18391049961927_2_alg».proof.Proof.Gen.KernelIdeal.Skeleton
import proofs.«159391_j18391049961927_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds their block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch entry's keys at every point, fetched there or kept from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 1×256×768 block and the whole 1×2048×768 block, as the body's accesses name them. -/
abbrev r1_0 : Rect S1x256x768 := Rect.unit (s := S1x256x768) ![0, 0, 0] S1x256x768.size inb_S1x256x768_S1x256x768_0_0_0
abbrev r1_1 : Rect S1x2048x768 := Rect.unit (s := S1x2048x768) ![0, 0, 0] S1x2048x768.size inb_S1x2048x768_S1x2048x768_0_0_0

/-- The output buffer after the body: the attention of the query block over the keys and values. -/
def out1_3 (x0 : Vec F S1x256x768 .bf16) (x1 : Vec F S1x2048x768 .bf16) (x2 : Vec F S1x2048x768 .bf16) : Vec F S1x256x768 .f32 :=
  View.canon [⟨r1_0, k1_pay1 (View.ld x0 r1_0) (View.ld x1 r1_1) (View.ld x2 r1_1)⟩]

/-- One store of the whole block covers the block. -/
theorem cover1 (p0 : Vec F S1x256x768 .f32) (y : S1x256x768.Idx) :
    ∃ pc ∈ ([⟨r1_0, p0⟩] : List (View.Piece (Elt F) S1x256x768 .f32)), y ∈ pc.1.set :=
  View.cover_of_tiled [⟨r1_0, p0⟩] S1x256x768.size (by rfl) y

set_option maxHeartbeats 1000000 in
/-- The body on whole staging memrefs: the three inputs are read and left as found, the output ends at the attention block. -/
theorem sound_kernel1 (c : Dev nD) (E : Set ℕ) (i : grid1.Coords) (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S1x256x768 .f32) (harg5 : arg5.IsWhole)
    (x0 : Vec F S1x256x768 .bf16) (x1 : Vec F S1x2048x768 .bf16) (x2 : Vec F S1x2048x768 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the attention pipeline on core `c`: inputs stay at their blocks, the output ends at the attention block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.IdealRun.lean ====
/-
  The run of `KernelIdeal`'s @main, segment by segment: host operations, the projection region, three reshapes, the
  attention region. The buffer contents at each boundary are a fold from the launch memory (a stretch of host
  operations applies them; a region replaces its arrays by what its write-backs leave and keeps every other buffer);
  every weakly fair execution terminates with each unscoped buffer at the last boundary's contents, and neither
  argument array is written on the way.
-/
import proofs.«159391_j18391049961927_2_alg».proof.Proof.IdealRegion0
import proofs.«159391_j18391049961927_2_alg».proof.Proof.IdealRegion1

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations before the projection region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one and no region stages one as an output -/

theorem W1_of_not_written (c : Dev nD) (b : Ref sig .tc)
    (h : b ∉ ([main_v0, main_v1, main_v2, main_v3, main_v4, main_v5, main_v6, main_v7, main_v8] : List (Ref sig .tc))) :
    W1 m ρ c (Proc.devRef .tc b) = W0 m ρ c (Proc.devRef .tc b) := by
  simp only [List.mem_cons, List.not_mem_nil, or_false, not_or] at h
  obtain ⟨h0, h1, h2, h3, h4, h5, h6, h7, h8⟩ := h
  refine StableHlo.after_of_forall_not_mem (b := Proc.devRef .tc b) _ _ (List.forall_iff_forall_mem.mp ?_)
  simp only [hostOps0, List.Forall, StableHlo.nullary_writes, StableHlo.unary_writes, StableHlo.binary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3, StableHlo.devRef_ne_of_ne h4,
    StableHlo.devRef_ne_of_ne h5, StableHlo.devRef_ne_of_ne h6, StableHlo.devRef_ne_of_ne h7, StableHlo.devRef_ne_of_ne h8⟩

theorem W3_of_not_written (c : Dev nD) (b : Ref sig .tc)
    (h : b ∉ ([main_v10, main_v11, main_v12] : List (Ref sig .tc))) :
    W3 m ρ c (Proc.devRef .tc b) = W2 m ρ c (Proc.devRef .tc b) := by
  simp only [List.mem_cons, List.not_mem_nil, or_false, not_or] at h
  obtain ⟨h0, h1, h2⟩ := h
  refine StableHlo.after_of_forall_not_mem (b := Proc.devRef .tc b) _ _ (List.forall_iff_forall_mem.mp ?_)
  simp only [hostOps1, List.Forall, StableHlo.reshape_writes, Finset.mem_singleton]
  exact ⟨StableHlo.devRef_ne_of_ne h0, StableHlo.devRef_ne_of_ne h1, StableHlo.devRef_ne_of_ne h2⟩

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.KernelIdeal.Run

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.IdealPay0.lean ====
/-
  The projection body's three stored values, read at an entry. With `x` the 512×768 block of input rows and `w` the
  768×2304 matrix of the three weight matrices side by side, the value stored into output `j` has at `(r, o)`

      ∑ d, x (r, d) · w (d, 768·j + o):

  the rounding to the narrower format is the identity at exact values, the casts to the same shape are the identity,
  a slice of 768 columns from column 768·j reads the matrix 768·j columns further on, and a matrix product into the
  zero accumulator is the plain sum over the contracted axis.
-/
import proofs.«159391_j18391049961927_2_alg».proof.Proof.Gen.KernelIdeal.Skeleton
import proofs.«159391_j18391049961927_2_alg».proof.Proof.LibTileRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen Cert.Lib.TileRead

/-- Column `o` of the `j`-th third of the joined weight matrix. -/
def col (j : Fin 3) (o : Fin 768) : Fin 2304 := ⟨768 * j.val + o.val, by have := j.isLt; have := o.isLt; omega⟩

theorem col_val (j : Fin 3) (o : Fin 768) : (col j o).val = 768 * j.val + o.val := rfl

/-- The projection product's dimension numbers are those of a plain matrix product. -/
theorem plain0 : PlainDot dot_S512x768_S768x768_S512x768_1_0_0_1_n_n where
  hr := rfl
  hs := rfl
  l0 j q := by
    unfold DotDims.lhsIdx
    rw [dif_neg (show ¬(0 : Fin S512x768.rank) ∈ dot_S512x768_S768x768_S512x768_1_0_0_1_n_n.lhsBatch by decide),
      dif_pos (show (0 : Fin S512x768.rank) ∈ dot_S512x768_S768x768_S512x768_1_0_0_1_n_n.lhsNonContracting by decide)]
    rfl
  l1 j q := dot_S512x768_S768x768_S512x768_1_0_0_1_n_n.lhsIdx_val_of_single rfl j q
  r0 j q := dot_S512x768_S768x768_S512x768_1_0_0_1_n_n.rhsIdx_val_of_single rfl j q
  r1 j q := by
    unfold DotDims.rhsIdx
    rw [dif_neg (show ¬(1 : Fin S768x768.rank) ∈ dot_S512x768_S768x768_S512x768_1_0_0_1_n_n.rhsBatch by decide),
      dif_pos (show (1 : Fin S768x768.rank) ∈ dot_S512x768_S768x768_S512x768_1_0_0_1_n_n.rhsNonContracting by decide)]
    rfl

/-- The rows as the products read them: the block itself. -/
theorem rows_apply (x : FVec Ideal S512x768 .f32) (i : S512x768.Idx) : (k0_pay1 (F := Ideal) x i : EReal) = x i := by
  unfold k0_pay1
  show shapeCast S512x768 x shapeCasts_S512x768_S512x768 i = x i
  rw [shapeCast_self]

/-- The joined weights as the slices read them: the matrix itself. -/
theorem weights_apply (w : FVec Ideal S768x2304 .bf16) (i : S768x2304.Idx) : (k0_pay2 (F := Ideal) w i : EReal) = w i := by
  unfold k0_pay2
  show shapeCast S768x2304 w shapeCasts_S768x2304_S768x2304 i = w i
  rw [shapeCast_self]

/-- The slice of 768 columns from column `c = 768·j` of the joined weights, at `(d, o)`. -/
theorem slice_read (w : FVec Ideal S768x2304 .bf16) (c : Nat) (hs : S768x2304.Slices ![0, c] S768x768) (j : Fin 3)
    (hc : c = 768 * j.val) (d o : Fin 768) :
    (extractStridedSlice S768x768 ![0, c] (k0_pay2 (F := Ideal) w) hs (ix2 d o) : EReal) = w (ix2 d (col j o)) := by
  have hk : (col j o).val = c + o.val := by rw [col_val, hc]
  have h := slice2_axis1_apply (α := EReal) c (k0_pay2 (F := Ideal) w) hs d o (col j o) hk
  exact h.trans (weights_apply w (ix2 d (col j o)))

/-- A product of the rows with 768 columns of the joined weights taken from column `c = 768·j`, at `(r, o)`. -/
theorem product_apply (x : FVec Ideal S512x768 .f32) (w : FVec Ideal S768x2304 .bf16) (c : Nat)
    (hs : S768x2304.Slices ![0, c] S768x768) (j : Fin 3) (hc : c = 768 * j.val) (r : Fin 512) (o : Fin 768) :
    (matmul dot_S512x768_S768x768_S512x768_1_0_0_1_n_n none (k0_pay1 (F := Ideal) x) (extractStridedSlice S768x768 ![0, c] (k0_pay2 (F := Ideal) w) hs)
        (constant S512x768 .f32 0x00000000#32) (ix2 r o) : EReal)
      = ∑ d : Fin 768, x (ix2 r d) * w (ix2 d (col j o)) := by
  have hm := matmul_zero_plain_apply dot_S512x768_S768x768_S512x768_1_0_0_1_n_n plain0 none (k0_pay1 (F := Ideal) x)
    (extractStridedSlice S768x768 ![0, c] (k0_pay2 (F := Ideal) w) hs) r o
  refine hm.trans ?_
  refine Finset.sum_congr rfl fun d _ => ?_
  exact congrArg₂ (· * ·) (rows_apply x (ix2 r d)) (slice_read w c hs j hc d o)

theorem pay3_apply (x : FVec Ideal S512x768 .f32) (w : FVec Ideal S768x2304 .bf16) (r : Fin 512) (o : Fin 768) :
    (k0_pay3 (F := Ideal) x w (ix2 r o) : EReal) = ∑ d : Fin 768, x (ix2 r d) * w (ix2 d (col 0 o)) := by
  unfold k0_pay3
  exact product_apply x w 0 slices_S768x2304_o0_0_S768x768 0 rfl r o

theorem pay4_apply (x : FVec Ideal S512x768 .f32) (w : FVec Ideal S768x2304 .bf16) (r : Fin 512) (o : Fin 768) :
    (k0_pay4 (F := Ideal) x w (ix2 r o) : EReal) = ∑ d : Fin 768, x (ix2 r d) * w (ix2 d (col 1 o)) := by
  unfold k0_pay4
  exact product_apply x w 768 slices_S768x2304_o0_768_S768x768 1 rfl r o

theorem pay5_apply (x : FVec Ideal S512x768 .f32) (w : FVec Ideal S768x2304 .bf16) (r : Fin 512) (o : Fin 768) :
    (k0_pay5 (F := Ideal) x w (ix2 r o) : EReal) = ∑ d : Fin 768, x (ix2 r d) * w (ix2 d (col 2 o)) := by
  unfold k0_pay5
  exact product_apply x w 1536 slices_S768x2304_o0_1536_S768x768 2 rfl r o

end Cert.KernelIdeal.Val

end
-- ==== Proof.IdealBlocks0.lean ====
/-
  From blocks to arrays in the projection region. The region's grid has 32 points; point `t` reads rows
  `512·t … 512·t + 511` of the flattened input and the whole joined weight matrix, and writes the same rows of each of
  the three outputs. So each output array ends, whatever it held before, at the whole product: at `(i, o)` the sum over
  `d` of the input at `(i, d)` times the joined weights at `(d, 768·j + o)`.
-/
import proofs.«159391_j18391049961927_2_alg».proof.Proof.IdealRegion0
import proofs.«159391_j18391049961927_2_alg».proof.Proof.IdealPay0
import Idealize.ShloMosaic.Lib.Pipeline.Value

set_option maxRecDepth 16384

noncomputable section

open scoped BigOperators

namespace Cert.KernelIdeal.Val

open Idealize.ShloMosaic Idealize.ShloMosaic.ValueIdx
open Cert.KernelIdeal Cert.KernelIdeal.Gen Cert.KernelIdeal.Run Idealize.ShloMosaic.TcCoe Idealize.SL.Sem
open Idealize.ShloMosaic.Pipeline (Dat)

variable (V : (c : Dev nD) → (b : Ref sig .tc) → Buf (Elt Ideal) ((c : Thread nD τ).loc b))

/-- The whole product of the flattened input with the `j`-th third of the joined weights. -/
def projFlat (j : Fin 3) (X : S16384x768.Idx → EReal) (Wc : S768x2304.Idx → EReal) : S16384x768.Idx → EReal :=
  fun i => ∑ d : Fin 768, X (ix2 (i 0) d) * Wc (ix2 d (col j (i 1)))

theorem hz2 : (![0, 0] : Fin 2 → Nat) = fun _ => 0 := funext fun a => by fin_cases a <;> rfl

/-- The printed index maps over the grid: the input rows and the three outputs move with the point, the weights stay. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx0_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Row `r` of point `t`'s block, as a row of the flattened array. -/
def brow (t : Fin cfg0.N) (r : Fin 512) : Fin 16384 :=
  ⟨t.val * 512 + r.val, by have ht : t.val < 32 := lt_of_lt_of_eq t.isLt N_0; have := r.isLt; omega⟩

/-- The input block at a point is those rows of the flattened input. -/
theorem rows_block (c : Dev nD) (t : Fin cfg0.N) (r : Fin 512) (d : Fin 768) :
    (iblk0 V c 0 t (ix2 r d) : EReal) = (V c main_v0 : S16384x768.Idx → EReal) (ix2 (brow t r) d) := by
  show (V c main_v0 : S16384x768.Idx → EReal) (((cfg0.win 0).blk t).view.emb (ix2 r d)) = _
  refine congrArg _ (funext fun a => Fin.ext ?_)
  match a with
  | ⟨0, _⟩ => show win0_0.index t (0 : Fin 2) * 512 + 1 * r.val = t.val * 512 + r.val; rw [(idx0_0 t).1]; omega
  | ⟨1, _⟩ => show win0_0.index t (1 : Fin 2) * 768 + 1 * d.val = d.val; rw [(idx0_0 t).2]; omega

/-- The weights' block at every point is the whole joined matrix. -/
theorem weights_block (c : Dev nD) (t : Fin cfg0.N) (d : Fin 768) (n : Fin 2304) :
    (iblk0 V c 1 t (ix2 d n) : EReal) = (V c main_v8 : S768x2304.Idx → EReal) (ix2 d n) := by
  show (V c main_v8 : S768x2304.Idx → EReal) (((cfg0.win 1).blk t).view.emb (ix2 d n)) = _
  refine congrArg _ (funext fun a => Fin.ext ?_)
  match a with
  | ⟨0, _⟩ => show win0_1.index t (0 : Fin 2) * 768 + 1 * d.val = d.val; rw [(idx0_1 t).1]; omega
  | ⟨1, _⟩ => show win0_1.index t (1 : Fin 2) * 2304 + 1 * n.val = n.val; rw [(idx0_1 t).2]; omega

/-! ## Output 0: the rows times the first weight matrix -/

/-- What point `t` writes back is block `t` of the whole product. -/
theorem flushed0_2 (c : Dev nD) (t : Fin cfg0.N) :
    (dat0 V c).flushed 2 t = ((cfg0.win 2).blk t).view.read (Elt Ideal) (projFlat 0 (V c main_v0) (V c main_v8)) := by
  show (cfg0.win 2).cut (grid0.coords t) ((dat0 V c).after 2 t) = _
  rw [after0_2]
  unfold out0_2
  rw [View.canon_unit_zero hz2]
  simp only [View.ld_unit_zero (S := S512x768) hz2, View.ld_unit_zero (S := S768x2304) hz2]
  funext y
  obtain ⟨r, o, rfl⟩ : ∃ (r : Fin 512) (o : Fin 768), y = ix2 r o := ⟨y 0, y 1, eq_ix2 y⟩
  show (k0_pay3 (F := Ideal) (iblk0 V c 0 t) (iblk0 V c 1 t) (ix2 r o) : EReal)
    = projFlat 0 (V c main_v0) (V c main_v8) (((cfg0.win 2).blk t).view.emb (ix2 r o))
  refine (pay3_apply (iblk0 V c 0 t) (iblk0 V c 1 t) r o).trans ?_
  have hi : ((cfg0.win 2).blk t).view.emb (ix2 r o) = ix2 (brow t r) o := by
    funext a; apply Fin.ext
    match a with
    | ⟨0, _⟩ => show win0_2.index t (0 : Fin 2) * 512 + 1 * r.val = t.val * 512 + r.val; rw [(idx0_2 t).1]; omega
    | ⟨1, _⟩ => show win0_2.index t (1 : Fin 2) * 768 + 1 * o.val = o.val; rw [(idx0_2 t).2]; omega
  rw [hi]
  exact Finset.sum_congr rfl fun d _ => congrArg₂ (· * ·) (rows_block V c t r d) (weights_block V c t d (col 0 o))

theorem mem_blk0_2 (t : Fin cfg0.N) (i : S16384x768.Idx) :
    i ∈ ((cfg0.win 2).blk t).view.set ↔ ∀ a : Fin 2, win0_2.index t a * S512x768.size a ≤ (i a).val ∧ (i a).val < win0_2.index t a * S512x768.size a + S512x768.size a := by
  show i ∈ ((View.whole main_v9_0).slice (win0_2.rect t)).set ↔ _
  rw [View.set_slice_whole, Rect.mem_set_unit]
  exact Iff.rfl

/-- Every row of the output lies in the block of the point its 512-row band belongs to. -/
theorem cover0_2 (i : S16384x768.Idx) :
    ∃ t : Fin cfg0.N, (cfg0.win 2).flush t = true ∧ i ∈ ((cfg0.win 2).blk t).view.set := by
  have hi0 : (i 0).val < 16384 := (i 0).isLt
  have hi1 : (i 1).val < 768 := (i 1).isLt
  refine ⟨⟨(i 0).val / 512, by rw [show cfg0.N = 32 from N_0]; omega⟩, flush0_2 _, ?_⟩
  rw [mem_blk0_2]
  intro a
  match a with
  | ⟨0, _⟩ =>
    show win0_2.index _ (0 : Fin 2) * 512 ≤ (i 0).val ∧ (i 0).val < win0_2.index _ (0 : Fin 2) * 512 + 512
    rw [(idx0_2 _).1]
    show (i 0).val / 512 * 512 ≤ (i 0).val ∧ (i 0).val < (i 0).val / 512 * 512 + 512
    omega
  | ⟨1, _⟩ =>
    show win0_2.index _ (1 : Fin 2) * 768 ≤ (i 1).val ∧ (i 1).val < win0_2.index _ (1 : Fin 2) * 768 + 768
    rw [(idx0_2 _).2]
    omega

/-- The array after the region: the whole product. -/
theorem final0_2 (c : Dev nD) : (dat0 V c).arrAt 2 cfg0.N = projFlat 0 (V c main_v0) (V c main_v8) :=
  (dat0 V c).arrAt_eq_of_cover 2 _ (fun t _ => flushed0_2 V c t) cover0_2

/-! ## Output 1: the rows times the second weight matrix -/

/-- What point `t` writes back is block `t` of the whole product. -/
theorem flushed0_3 (c : Dev nD) (t : Fin cfg0.N) :
    (dat0 V c).flushed 3 t = ((cfg0.win 3).blk t).view.read (Elt Ideal) (projFlat 1 (V c main_v0) (V c main_v8)) := by
  show (cfg0.win 3).cut (grid0.coords t) ((dat0 V c).after 3 t) = _
  rw [after0_3]
  unfold out0_3
  rw [View.canon_unit_zero hz2]
  simp only [View.ld_unit_zero (S := S512x768) hz2, View.ld_unit_zero (S := S768x2304) hz2]
  funext y
  obtain ⟨r, o, rfl⟩ : ∃ (r : Fin 512) (o : Fin 768), y = ix2 r o := ⟨y 0, y 1, eq_ix2 y⟩
  show (k0_pay4 (F := Ideal) (iblk0 V c 0 t) (iblk0 V c 1 t) (ix2 r o) : EReal)
    = projFlat 1 (V c main_v0) (V c main_v8) (((cfg0.win 3).blk t).view.emb (ix2 r o))
  refine (pay4_apply (iblk0 V c 0 t) (iblk0 V c 1 t) r o).trans ?_
  have hi : ((cfg0.win 3).blk t).view.emb (ix2 r o) = ix2 (brow t r) o := by
    funext a; apply Fin.ext
    match a with
    | ⟨0, _⟩ => show win0_3.index t (0 : Fin 2) * 512 + 1 * r.val = t.val * 512 + r.val; rw [(idx0_3 t).1]; omega
    | ⟨1, _⟩ => show win0_3.index t (1 : Fin 2) * 768 + 1 * o.val = o.val; rw [(idx0_3 t).2]; omega
  rw [hi]
  exact Finset.sum_congr rfl fun d _ => congrArg₂ (· * ·) (rows_block V c t r d) (weights_block V c t d (col 1 o))

theorem mem_blk0_3 (t : Fin cfg0.N) (i : S16384x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v9_1).slice (win0_3.rect t)).set ↔ _
  rw [View.set_slice_whole, Rect.mem_set_unit]
  exact Iff.rfl

/-- Every row of the output lies in the block of the point its 512-row band belongs to. -/
theorem cover0_3 (i : S16384x768.Idx) :
    ∃ t : Fin cfg0.N, (cfg0.win 3).flush t = true ∧ i ∈ ((cfg0.win 3).blk t).view.set := by
  have hi0 : (i 0).val < 16384 := (i 0).isLt
  have hi1 : (i 1).val < 768 := (i 1).isLt
  refine ⟨⟨(i 0).val / 512, by rw [show cfg0.N = 32 from N_0]; omega⟩, flush0_3 _, ?_⟩
  rw [mem_blk0_3]
  intro a
  match a with
  | ⟨0, _⟩ =>
    show win0_3.index _ (0 : Fin 2) * 512 ≤ (i 0).val ∧ (i 0).val < win0_3.index _ (0 : Fin 2) * 512 + 512
    rw [(idx0_3 _).1]
    show (i 0).val / 512 * 512 ≤ (i 0).val ∧ (i 0).val < (i 0).val / 512 * 512 + 512
    omega
  | ⟨1, _⟩ =>
    show win0_3.index _ (1 : Fin 2) * 768 ≤ (i 1).val ∧ (i 1).val < win0_3.index _ (1 : Fin 2) * 768 + 768
    rw [(idx0_3 _).2]
    omega

/-- The array after the region: the whole product. -/
theorem final0_3 (c : Dev nD) : (dat0 V c).arrAt 3 cfg0.N = projFlat 1 (V c main_v0) (V c main_v8) :=
  (dat0 V c).arrAt_eq_of_cover 3 _ (fun t _ => flushed0_3 V c t) cover0_3

/-! ## Output 2: the rows times the third weight matrix -/

/-- What point `t` writes back is block `t` of the whole product. -/
theorem flushed0_4 (c : Dev nD) (t : Fin cfg0.N) :
    (dat0 V c).flushed 4 t = ((cfg0.win 4).blk t).view.read (Elt Ideal) (projFlat 2 (V c main_v0) (V c main_v8)) := by
  show (cfg0.win 4).cut (grid0.coords t) ((dat0 V c).after 4 t) = _
  rw [after0_4]
  unfold out0_4
  rw [View.canon_unit_zero hz2]
  simp only [View.ld_unit_zero (S := S512x768) hz2, View.ld_unit_zero (S := S768x2304) hz2]
  funext y
  obtain ⟨r, o, rfl⟩ : ∃ (r : Fin 512) (o : Fin 768), y = ix2 r o := ⟨y 0, y 1, eq_ix2 y⟩
  show (k0_pay5 (F := Ideal) (iblk0 V c 0 t) (iblk0 V c 1 t) (ix2 r o) : EReal)
    = projFlat 2 (V c main_v0) (V c main_v8) (((cfg0.win 4).blk t).view.emb (ix2 r o))
  refine (pay5_apply (iblk0 V c 0 t) (iblk0 V c 1 t) r o).trans ?_
  have hi : ((cfg0.win 4).blk t).view.emb (ix2 r o) = ix2 (brow t r) o := by
    funext a; apply Fin.ext
    match a with
    | ⟨0, _⟩ => show win0_4.index t (0 : Fin 2) * 512 + 1 * r.val = t.val * 512 + r.val; rw [(idx0_4 t).1]; omega
    | ⟨1, _⟩ => show win0_4.index t (1 : Fin 2) * 768 + 1 * o.val = o.val; rw [(idx0_4 t).2]; omega
  rw [hi]
  exact Finset.sum_congr rfl fun d _ => congrArg₂ (· * ·) (rows_block V c t r d) (weights_block V c t d (col 2 o))

theorem mem_blk0_4 (t : Fin cfg0.N) (i : S16384x768.Idx) :
    i ∈ ((cfg0.win 4).blk t).view.set ↔ ∀ a : Fin 2, win0_4.index t a * S512x768.size a ≤ (i a).val ∧ (i a).val < win0_4.index t a * S512x768.size a + S512x768.size a := by
  show i ∈ ((View.whole main_v9_2).slice (win0_4.rect t)).set ↔ _
  rw [View.set_slice_whole, Rect.mem_set_unit]
  exact Iff.rfl

/-- Every row of the output lies in the block of the point its 512-row band belongs to. -/
theorem cover0_4 (i : S16384x768.Idx) :
    ∃ t : Fin cfg0.N, (cfg0.win 4).flush t = true ∧ i ∈ ((cfg0.win 4).blk t).view.set := by
  have hi0 : (i 0).val < 16384 := (i 0).isLt
  have hi1 : (i 1).val < 768 := (i 1).isLt
  refine ⟨⟨(i 0).val / 512, by rw [show cfg0.N = 32 from N_0]; omega⟩, flush0_4 _, ?_⟩
  rw [mem_blk0_4]
  intro a
  match a with
  | ⟨0, _⟩ =>
    show win0_4.index _ (0 : Fin 2) * 512 ≤ (i 0).val ∧ (i 0).val < win0_4.index _ (0 : Fin 2) * 512 + 512
    rw [(idx0_4 _).1]
    show (i 0).val / 512 * 512 ≤ (i 0).val ∧ (i 0).val < (i 0).val / 512 * 512 + 512
    omega
  | ⟨1, _⟩ =>
    show win0_4.index _ (1 : Fin 2) * 768 ≤ (i 1).val ∧ (i 1).val < win0_4.index _ (1 : Fin 2) * 768 + 768
    rw [(idx0_4 _).2]
    omega

/-- The array after the region: the whole product. -/
theorem final0_4 (c : Dev nD) : (dat0 V c).arrAt 4 cfg0.N = projFlat 2 (V c main_v0) (V c main_v8) :=
  (dat0 V c).arrAt_eq_of_cover 4 _ (fun t _ => flushed0_4 V c t) cover0_4

end Cert.KernelIdeal.Val

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.LibNonnegLinear.lean ====
/-
  Linear laws over the extended reals for sums of terms that are not negative.

  Over the extended reals multiplication does not distribute over addition in general:
  `⊤ * (1 + -1) = 0` while `⊤ * 1 + ⊤ * (-1) = ⊤ + ⊥ = ⊥`. Two restricted laws do hold.
  A sum of two terms that are not negative distributes over ANY right factor,
  `(a + b) * w = a * w + b * w` for `0 ≤ a`, `0 ≤ b`; and a factor that is not negative and
  is finite distributes over ANY sum, `(x + y) * c = x * c + y * c` for `0 ≤ c`, `c ≠ ⊤`.
  Addition and multiplication are each commutative and associative, so both laws extend to
  finite sums by induction on the index set, and with an exchange of the order of summation
  they give the law of one layer of a weighted aggregation: with weights `c e`, `d` that are
  not negative and finite, and entries `g e k`, `h k` that are not negative (they may be `⊤`),

      Σ_k ((Σ_e g e k * c e) + h k * d) * W k  =  (Σ_e (Σ_k g e k * W k) * c e) + (Σ_k h k * W k) * d

  for an arbitrary `W`: aggregating and then applying `W` is applying `W` and then aggregating.

  Last, the normalising weight: a count plus one is a real number that is at least one, so the
  reciprocal of its square root is a real number that is positive, hence not negative and finite;
  and the numbers that are not negative and finite are closed under multiplication.
-/
import Mathlib.Data.EReal.Operations
import Mathlib.Data.EReal.Inv
import Idealize.ShloMosaic.PureOps.Ideal

noncomputable section

namespace Idealize.ShloMosaic.NonnegLinear

open scoped BigOperators
open Idealize.ShloMosaic

/-! ## The two distributive laws over finite sums -/

/-- A finite sum of terms that are not negative distributes over any right factor. -/
theorem sum_mul_of_nonneg {ι : Type*} (s : Finset ι) (a : ι → EReal) (ha : ∀ i ∈ s, 0 ≤ a i)
    (w : EReal) : (∑ i ∈ s, a i) * w = ∑ i ∈ s, a i * w := by
  classical
  induction s using Finset.induction_on with
  | empty => simp
  | insert i s hi ih =>
    have hs : ∀ j ∈ s, 0 ≤ a j := fun j hj => ha j (Finset.mem_insert_of_mem hj)
    rw [Finset.sum_insert hi, Finset.sum_insert hi,
      EReal.right_distrib_of_nonneg (ha i (Finset.mem_insert_self i s)) (Finset.sum_nonneg hs),
      ih hs]

/-- A right factor that is not negative and is finite distributes over any finite sum. -/
theorem mul_sum_of_nonneg_fin {ι : Type*} (s : Finset ι) (t : ι → EReal) (c : EReal) (hc : 0 ≤ c)
    (hc' : c ≠ ⊤) : (∑ i ∈ s, t i) * c = ∑ i ∈ s, t i * c := by
  classical
  induction s using Finset.induction_on with
  | empty => simp
  | insert i s hi ih =>
    rw [Finset.sum_insert hi, Finset.sum_insert hi,
      EReal.right_distrib_of_nonneg_of_ne_top hc hc', ih]

/-! ## One layer: aggregate then apply `W`, or apply `W` then aggregate -/

/-- With entries `g`, `h` that are not negative and weights `c`, `d` that are not negative and finite,
contracting the aggregated row with `W` is aggregating the rows contracted with `W`. -/
theorem layer_law {E K : Type*} [Fintype K] (S : Finset E) (g : E → K → EReal) (c : E → EReal)
    (h : K → EReal) (d : EReal) (W : K → EReal)
    (hg : ∀ e k, 0 ≤ g e k) (hc : ∀ e, 0 ≤ c e) (hc' : ∀ e, c e ≠ ⊤) (hh : ∀ k, 0 ≤ h k)
    (hd : 0 ≤ d) (hd' : d ≠ ⊤) :
    ∑ k, ((∑ e ∈ S, g e k * c e) + h k * d) * W k
      = (∑ e ∈ S, (∑ k, g e k * W k) * c e) + (∑ k, h k * W k) * d := by
  -- at each `k`: split the two nonnegative summands, then the inner nonnegative sum, over `W k`
  have h1 : ∀ k, ((∑ e ∈ S, g e k * c e) + h k * d) * W k
      = (∑ e ∈ S, (g e k * W k) * c e) + (h k * W k) * d := by
    intro k
    rw [EReal.right_distrib_of_nonneg
        (Finset.sum_nonneg fun e _ => mul_nonneg (hg e k) (hc e)) (mul_nonneg (hh k) hd),
      sum_mul_of_nonneg S (fun e => g e k * c e) (fun e _ => mul_nonneg (hg e k) (hc e)) (W k)]
    congr 1
    · exact Finset.sum_congr rfl fun e _ => mul_right_comm _ _ _
    · exact mul_right_comm _ _ _
  -- sum over `k`, exchange the two sums, and pull the finite nonnegative weights out
  rw [Finset.sum_congr rfl fun k _ => h1 k, Finset.sum_add_distrib, Finset.sum_comm]
  congr 1
  · exact Finset.sum_congr rfl fun e _ =>
      (mul_sum_of_nonneg_fin Finset.univ (fun k => g e k * W k) (c e) (hc e) (hc' e)).symm
  · exact (mul_sum_of_nonneg_fin Finset.univ (fun k => h k * W k) d hd hd').symm

/-! ## The normalising weight -/

/-- The f32 pattern `0x3F800000` is the extended real one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(√r)⁻¹`. -/
theorem rsqrt_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- At a positive real the reciprocal square root is not negative and is finite. -/
theorem rsqrt_of_pos_nonneg_fin {r : ℝ} (hr : 0 < r) :
    0 ≤ Ideal.rsqrt (r : EReal) ∧ Ideal.rsqrt (r : EReal) ≠ ⊤ := by
  rw [rsqrt_of_pos hr]
  exact ⟨EReal.coe_nonneg.mpr (inv_nonneg.mpr (Real.sqrt_nonneg r)), EReal.coe_ne_top _⟩

/-- A sum of ones over a finite set, plus one, is the real number `card + 1`. -/
theorem sum_one_add_one {ι : Type*} (s : Finset ι) :
    (∑ _i ∈ s, (1 : EReal)) + 1 = (((s.card : ℝ) + 1 : ℝ) : EReal) := by
  rw [Finset.sum_const, EReal.nsmul_eq_mul, mul_one, EReal.coe_add, EReal.coe_natCast, EReal.coe_one]

/-- The reciprocal square root of a count plus one is not negative and is finite. -/
theorem rsqrt_count {ι : Type*} (s : Finset ι) :
    0 ≤ Ideal.rsqrt ((∑ _i ∈ s, (1 : EReal)) + 1)
      ∧ Ideal.rsqrt ((∑ _i ∈ s, (1 : EReal)) + 1) ≠ ⊤ := by
  rw [sum_one_add_one]
  exact rsqrt_of_pos_nonneg_fin (by positivity)

/-- The extended reals that are not negative and are finite are closed under multiplication. -/
theorem mul_nonneg_fin {a b : EReal} (ha : 0 ≤ a) (ha' : a ≠ ⊤) (hb : 0 ≤ b) (hb' : b ≠ ⊤) :
    0 ≤ a * b ∧ a * b ≠ ⊤ := by
  refine ⟨mul_nonneg ha hb, ?_⟩
  lift a to ℝ using ⟨ha', (EReal.bot_lt_zero.trans_le ha).ne'⟩
  lift b to ℝ using ⟨hb', (EReal.bot_lt_zero.trans_le hb).ne'⟩
  rw [← EReal.coe_mul]
  exact EReal.coe_ne_top _

end Idealize.ShloMosaic.NonnegLinear
-- ==== Proof.LibSoftmaxSum.lean ====
/-
  A sum weighted by a row's exponentials, normalised after the sum or inside it.

  For a finite row of scores `s` let `peak s` be its greatest entry (the fold of `max` from `⊥`), `weight s n = exp (s n - peak s)`
  and `mass s = ∑ n, weight s n`. Two programs may form the same weighted average of a second row `f` in two ways:

      fused s f  = (∑ n, weight s n * f n) * (1 / mass s)        -- the quotient taken once, after the sum
      spread s f = ∑ n, f n * (weight s n / mass s)              -- every weight divided before the sum

  Over the extended reals a product does not distribute over a sum in general, so the two are not equal for arbitrary
  scores. When every score is a real number and the row is not empty, the peak is a real number, every weight is a
  positive real number (at most one), and the mass is a positive real number; its reciprocal is then a factor that is
  not negative and is finite, and such a factor distributes over any finite sum, whatever the entries of `f` are
  (they may be infinite). That is `fused_eq_spread`.

  Also here: a score scaled by the word of 1/16 is the score divided by the word of 16 (on every extended real), the
  words of 16, 1/16 and -∞ as extended reals, and that a scaled sum of products of real numbers is a real number.
-/
import Idealize.ShloMosaic.PureOps.Ideal
import Idealize.ShloMosaic.PureOps.Ideal.Laws
import proofs.«159391_j18391049961927_2_alg».proof.Proof.LibReal
import proofs.«159391_j18391049961927_2_alg».proof.Proof.LibNonnegLinear

noncomputable section

open scoped BigOperators

namespace Cert.SoftmaxSum

open Idealize.ShloMosaic Cert.LibReal Idealize.ShloMosaic.NonnegLinear

variable {ι : Type*} [Fintype ι]

/-- The greatest entry of a row, from `⊥`. -/
def peak (s : ι → EReal) : EReal := (Finset.univ : Finset ι).fold max ⊥ s

/-- The exponential of an entry's distance below the peak. -/
def weight (s : ι → EReal) (n : ι) : EReal := Ideal.exp (s n - peak s)

/-- The sum of the weights. -/
def mass (s : ι → EReal) : EReal := ∑ n, weight s n

/-- The weighted sum of `f`, divided once by the mass. -/
def fused (s f : ι → EReal) : EReal := (∑ n, weight s n * f n) * Ideal.div 1 (mass s)

/-- The sum of `f` against the weights each divided by the mass. -/
def spread (s f : ι → EReal) : EReal := ∑ n, f n * Ideal.div (weight s n) (mass s)

/-- The fold of `max` from `⊥` over a set of real numbers that is not empty is a real number. -/
theorem isReal_fold_max {κ : Type*} (t : Finset κ) (f : κ → EReal) (h : ∀ i ∈ t, IsReal (f i)) (ht : t.Nonempty) :
    IsReal (t.fold max ⊥ f) := by
  classical
  induction t using Finset.induction_on with
  | empty => exact absurd ht Finset.not_nonempty_empty
  | insert a t ha ih =>
    rw [Finset.fold_insert ha]
    obtain ⟨r, hr⟩ := h a (Finset.mem_insert_self a t)
    by_cases hne : t.Nonempty
    · obtain ⟨q, hq⟩ := ih (fun i hi => h i (Finset.mem_insert_of_mem hi)) hne
      rw [hr, hq]
      exact ⟨max r q, (EReal.coe_strictMono.monotone.map_max).symm⟩
    · rw [Finset.not_nonempty_iff_eq_empty.mp hne, Finset.fold_empty, max_bot_right]
      exact ⟨r, hr⟩

section RealRow

variable [Nonempty ι] (s : ι → EReal) (hs : ∀ n, IsReal (s n))
include hs

/-- The peak of a row of real numbers is a real number. -/
theorem isReal_peak : IsReal (peak s) :=
  isReal_fold_max Finset.univ s (fun n _ => hs n) Finset.univ_nonempty

/-- Each weight of a row of real numbers is a positive real number. -/
theorem weight_pos_real (n : ι) : ∃ r : ℝ, 0 < r ∧ weight s n = (r : EReal) := by
  obtain ⟨a, ha⟩ := hs n
  obtain ⟨b, hb⟩ := isReal_peak s hs
  refine ⟨Real.exp (a - b), Real.exp_pos _, ?_⟩
  unfold weight
  rw [ha, hb, ← EReal.coe_sub, Ideal.exp_coe]

/-- The mass of a row of real numbers is a positive real number. -/
theorem mass_pos_real : ∃ d : ℝ, 0 < d ∧ mass s = (d : EReal) := by
  choose r hr0 hr using weight_pos_real s hs
  refine ⟨∑ n, r n, Finset.sum_pos (fun n _ => hr0 n) Finset.univ_nonempty, ?_⟩
  unfold mass
  rw [coe_sum]
  exact Finset.sum_congr rfl fun n _ => hr n

/-- THE LAW: for a row of real scores that is not empty, dividing the weighted sum by the mass is summing against the
    weights each divided by the mass — for ANY second row `f`. -/
theorem fused_eq_spread (f : ι → EReal) : fused s f = spread s f := by
  obtain ⟨d, hd, hD⟩ := mass_pos_real s hs
  have hc : (0 : EReal) ≤ ((1 / d : ℝ) : EReal) := EReal.coe_nonneg.mpr (by positivity)
  unfold fused spread
  rw [hD, Ideal.div_coe hd.ne' 1, one_mul,
    mul_sum_of_nonneg_fin Finset.univ (fun n => weight s n * f n) _ hc (EReal.coe_ne_top _)]
  refine Finset.sum_congr rfl fun n _ => ?_
  rw [Ideal.div_coe hd.ne', mul_comm (weight s n) (f n), mul_assoc]

end RealRow

/-! ## The scale and the float words -/

/-- The word of `16.0` is the real number 16. -/
theorem ofBits_sixteen : Ideal.ofBits .f32 0x41800000#32 = ((16 : ℝ) : EReal) := by
  simp [Ideal.ofBits, Ideal.ieee]
  exact_mod_cast (by norm_num : (8388608 : ℝ) * (2 ^ 19)⁻¹ = 16)

/-- The word of `0.0625` is the real number 1/16. -/
theorem ofBits_sixteenth : Ideal.ofBits .f32 0x3D800000#32 = ((1 / 16 : ℝ) : EReal) := by
  simp [Ideal.ofBits, Ideal.ieee]
  exact_mod_cast (by norm_num : (8388608 : ℝ) * (2 ^ 27)⁻¹ = 16⁻¹)

/-- The word `0xFF800000` is `-∞`. -/
theorem ofBits_neg_inf : Ideal.ofBits .f32 0xFF800000#32 = (⊥ : EReal) := by
  simp [Ideal.ofBits, Ideal.ieee]

/-- Scaling by the word of 1/16 is dividing by the word of 16, on every extended real. -/
theorem mul_sixteenth_eq_div (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

/-- A sum of products of real numbers, scaled by the word of 1/16, is a real number. -/
theorem isReal_scaled_dot {κ : Type*} [Fintype κ] (q a : κ → EReal) (hq : ∀ k, IsReal (q k)) (ha : ∀ k, IsReal (a k)) :
    IsReal ((∑ k, q k * a k) * Ideal.ofBits .f32 0x3D800000#32) := by
  rw [ofBits_sixteenth]
  exact (IsReal.sum _ _ fun k _ => (hq k).mul (ha k)).mul (isReal_coe _)

end Cert.SoftmaxSum

end
-- ==== Proof.Attention.lean ====
/-
  Self-attention over one batch of sequences, as two arrangements of the same arithmetic on the extended reals.

  The activations are an [8, 2048, 768] array `x` and the weights a [3, 768, 768] array `w`. Projection `j` of row `(b, s)`
  has at column `o` the sum over `d` of `x (b, s, d) · w (j, d, o)`. For queries `q`, keys `k` and values `v` (three arrays of
  the activations' shape) the score of query row `s` against key row `n` of batch entry `b` is their dot product over the
  768 columns times the scale word; a row of scores has its peak (the fold of `max` from `⊥`), its weights
  `exp (score − peak)` and its mass, the sum of the weights.

      fusedAttn  q k v (b, s, o) = (∑ n, weight n · v (b, n, o)) / mass        -- one quotient, after the sum
      spreadAttn q k v (b, s, o) = ∑ n, (weight n / mass) · v (b, n, o)        -- every weight divided first

  When every query and key entry is a real number the scores are real, the mass is a positive real, and a quotient by it is
  a product with a finite nonnegative factor, which distributes over the sum whatever the values are: the two agree.
  Projections of real activations by real weights are real.
-/
import Idealize.ShloMosaic.Lib.ValueIdx
import Idealize.ShloMosaic.PureOps.Ideal
import Idealize.ShloMosaic.PureOps.Ideal.Laws
import proofs.«159391_j18391049961927_2_alg».proof.Proof.LibSoftmaxSum

noncomputable section

open scoped BigOperators

namespace Cert.Attention

open Idealize.ShloMosaic Idealize.ShloMosaic.ValueIdx Cert.LibReal Cert.SoftmaxSum

/-- The activations' shape and the stacked weights' shape. -/
abbrev SA : Shape := ⟨3, ![8, 2048, 768]⟩
abbrev SW : Shape := ⟨3, ![3, 768, 768]⟩

/-- The scale both programs multiply the scores by: the float nearest 1/√768, as its exact binary value. -/
def scale : EReal := Ideal.ofBits .f32 0x3D13CD3A#32

/-- The scale is a real number. -/
theorem isReal_scale : IsReal scale := by
  refine ⟨(9686330 : ℝ) * (2 ^ 28)⁻¹, ?_⟩
  unfold scale
  simp [Ideal.ofBits, Ideal.ieee]

/-- Projection `j` of the activations, at row `(b, s)` and column `o`. -/
def proj (x : SA.Idx → EReal) (w : SW.Idx → EReal) (j : Fin 3) (b : Fin 8) (s : Fin 2048) (o : Fin 768) : EReal :=
  ∑ d : Fin 768, x (ix3 b s d) * w (ix3 j d o)

/-- The same as an array of the activations' shape. -/
def projArr (x : SA.Idx → EReal) (w : SW.Idx → EReal) (j : Fin 3) : SA.Idx → EReal :=
  fun i => proj x w j (i 0) (i 1) (i 2)

theorem projArr_ix3 (x : SA.Idx → EReal) (w : SW.Idx → EReal) (j : Fin 3) (b : Fin 8) (s : Fin 2048) (o : Fin 768) :
    projArr x w j (ix3 b s o) = proj x w j b s o := rfl

/-- The scores of query row `s` of batch entry `b` against every key row. -/
def score (q k : SA.Idx → EReal) (b : Fin 8) (s : Fin 2048) : Fin 2048 → EReal :=
  fun n => (∑ o : Fin 768, q (ix3 b s o) * k (ix3 b n o)) * scale

/-- Attention with the quotient taken once, after the weighted sum of the values. -/
def fusedAttn (q k v : SA.Idx → EReal) : SA.Idx → EReal := fun i =>
  Ideal.div (∑ n : Fin 2048, weight (score q k (i 0) (i 1)) n * v (ix3 (i 0) n (i 2))) (mass (score q k (i 0) (i 1)))

/-- Attention with every weight divided by the mass before the sum. -/
def spreadAttn (q k v : SA.Idx → EReal) : SA.Idx → EReal := fun i =>
  ∑ n : Fin 2048, Ideal.div (weight (score q k (i 0) (i 1)) n) (mass (score q k (i 0) (i 1))) * v (ix3 (i 0) n (i 2))

/-- Scores of real queries against real keys are real numbers. -/
theorem isReal_score (q k : SA.Idx → EReal) (hq : ∀ i, IsReal (q i)) (hk : ∀ i, IsReal (k i)) (b : Fin 8) (s n : Fin 2048) :
    IsReal (score q k b s n) :=
  (IsReal.sum _ _ fun o _ => (hq _).mul (hk _)).mul isReal_scale

/-- THE LAW: for real queries and keys the two arrangements agree, whatever the values are. -/
theorem fusedAttn_eq_spreadAttn (q k v : SA.Idx → EReal) (hq : ∀ i, IsReal (q i)) (hk : ∀ i, IsReal (k i)) :
    fusedAttn q k v = spreadAttn q k v := by
  funext i
  have hs : ∀ n, IsReal (score q k (i 0) (i 1) n) := isReal_score q k hq hk (i 0) (i 1)
  obtain ⟨d, hd, hD⟩ := mass_pos_real (score q k (i 0) (i 1)) hs
  have h := fused_eq_spread (score q k (i 0) (i 1)) hs (fun n => v (ix3 (i 0) n (i 2)))
  unfold fused spread at h
  unfold fusedAttn spreadAttn
  rw [hD] at h ⊢
  rw [Ideal.div_coe hd.ne' 1, one_mul] at h
  rw [Ideal.div_coe hd.ne', h]
  exact Finset.sum_congr rfl fun n _ => mul_comm _ _

/-- A projection of real activations by real weights is real everywhere. -/
theorem isReal_projArr (x : SA.Idx → EReal) (w : SW.Idx → EReal) (hx : ∀ i, IsReal (x i)) (hw : ∀ i, IsReal (w i)) (j : Fin 3)
    (i : SA.Idx) : IsReal (projArr x w j i) := by
  unfold projArr proj
  exact IsReal.sum _ _ fun d _ => (hx _).mul (hw _)

end Cert.Attention

end
-- ==== Proof.IdealPay1.lean ====
/-
  The attention body's stored value, read at an entry. With `q` the 1×256×768 block of query rows and `k`, `v` the
  1×2048×768 key and value matrices of one batch entry, row `r` has the scores

      s n = (∑ d, q (0, r, d) · k (0, n, d)) · scale,

  their peak (the fold of `max` from `⊥`), the weights `exp (s n − peak)`, their sum the mass, and the stored value at
  `(0, r, o)` is `(∑ n, weight n · v (0, n, o)) / mass`. The tile is read in three stages: the scaled scores (a
  plain product with the transposed keys), the weights (row peak kept as a column and stretched back, a difference,
  the exponential), and the quotient of the second product by the stretched column of row sums.
-/
import proofs.«159391_j18391049961927_2_alg».proof.Proof.Gen.KernelIdeal.Skeleton
import proofs.«159391_j18391049961927_2_alg».proof.Proof.LibTileRead
import proofs.«159391_j18391049961927_2_alg».proof.Proof.LibColumnOps
import proofs.«159391_j18391049961927_2_alg».proof.Proof.LibColumnSum
import proofs.«159391_j18391049961927_2_alg».proof.Proof.Attention
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen Cert.Lib.TileRead Cert.Lib.ColumnSum Idealize.ShloMosaic.ColumnOps Cert.SoftmaxSum Cert.Attention

/-- The two products' dimension numbers are those of plain matrix products. -/
theorem plainQK : PlainDot dot_S256x768_S768x2048_S256x2048_1_0_0_1_n_n where
  hr := rfl
  hs := rfl
  l0 j q := by
    unfold DotDims.lhsIdx
    rw [dif_neg (show ¬(0 : Fin S256x768.rank) ∈ dot_S256x768_S768x2048_S256x2048_1_0_0_1_n_n.lhsBatch by decide),
      dif_pos (show (0 : Fin S256x768.rank) ∈ dot_S256x768_S768x2048_S256x2048_1_0_0_1_n_n.lhsNonContracting by decide)]
    rfl
  l1 j q := dot_S256x768_S768x2048_S256x2048_1_0_0_1_n_n.lhsIdx_val_of_single rfl j q
  r0 j q := dot_S256x768_S768x2048_S256x2048_1_0_0_1_n_n.rhsIdx_val_of_single rfl j q
  r1 j q := by
    unfold DotDims.rhsIdx
    rw [dif_neg (show ¬(1 : Fin S768x2048.rank) ∈ dot_S256x768_S768x2048_S256x2048_1_0_0_1_n_n.rhsBatch by decide),
      dif_pos (show (1 : Fin S768x2048.rank) ∈ dot_S256x768_S768x2048_S256x2048_1_0_0_1_n_n.rhsNonContracting by decide)]
    rfl

theorem plainPV : PlainDot dot_S256x2048_S2048x768_S256x768_1_0_0_1_n_n where
  hr := rfl
  hs := rfl
  l0 j q := by
    unfold DotDims.lhsIdx
    rw [dif_neg (show ¬(0 : Fin S256x2048.rank) ∈ dot_S256x2048_S2048x768_S256x768_1_0_0_1_n_n.lhsBatch by decide),
      dif_pos (show (0 : Fin S256x2048.rank) ∈ dot_S256x2048_S2048x768_S256x768_1_0_0_1_n_n.lhsNonContracting by decide)]
    rfl
  l1 j q := dot_S256x2048_S2048x768_S256x768_1_0_0_1_n_n.lhsIdx_val_of_single rfl j q
  r0 j q := dot_S256x2048_S2048x768_S256x768_1_0_0_1_n_n.rhsIdx_val_of_single rfl j q
  r1 j q := by
    unfold DotDims.rhsIdx
    rw [dif_neg (show ¬(1 : Fin S2048x768.rank) ∈ dot_S256x2048_S2048x768_S256x768_1_0_0_1_n_n.rhsBatch by decide),
      dif_pos (show (1 : Fin S2048x768.rank) ∈ dot_S256x2048_S2048x768_S256x768_1_0_0_1_n_n.rhsNonContracting by decide)]
    rfl

/-- The scores of query row `r` of the block against the key rows. -/
def rowScore (q : FVec Ideal S1x256x768 .bf16) (k : FVec Ideal S1x2048x768 .bf16) (r : Fin 256) : Fin 2048 → EReal :=
  fun n => (∑ d : Fin 768, q (ix3 (0 : Fin 1) r d) * k (ix3 (0 : Fin 1) n d)) * scale

/-- Stage one: the scaled scores of the tile. -/
def scoreTile (q : FVec Ideal S1x256x768 .bf16) (k : FVec Ideal S1x2048x768 .bf16) : FVec Ideal S256x2048 .f32 :=
  mulf (matmul dot_S256x768_S768x2048_S256x2048_1_0_0_1_n_n none (shapeCast S256x768 q shapeCasts_S1x256x768_S256x768)
      (transpose S768x2048 [1, 0] (shapeCast S2048x768 k shapeCasts_S1x2048x768_S2048x768) transposes_S2048x768_p1_0_S768x2048)
      (constant S256x2048 .f32 0x00000000#32))
    (broadcast S256x2048 (Scalar.ofBits .f32 0x3D13CD3A#32))

theorem scoreTile_apply (q : FVec Ideal S1x256x768 .bf16) (k : FVec Ideal S1x2048x768 .bf16) (r : Fin 256) (n : Fin 2048) :
    scoreTile q k (ix2 r n) = rowScore q k r n := by
  unfold scoreTile rowScore
  show matmul dot_S256x768_S768x2048_S256x2048_1_0_0_1_n_n none _ _ (constant S256x2048 .f32 0x00000000#32) (ix2 r n) * Ideal.ofBits .f32 0x3D13CD3A#32 = _
  refine congrArg (· * scale) ?_
  refine (matmul_zero_plain_apply dot_S256x768_S768x2048_S256x2048_1_0_0_1_n_n plainQK none _ _ r n).trans ?_
  refine Finset.sum_congr rfl fun d _ => ?_
  refine congrArg₂ (· * ·) (shapeCast_1ab_ab_apply q shapeCasts_S1x256x768_S256x768 r d) ?_
  refine (transpose_swap_apply _ transposes_S2048x768_p1_0_S768x2048 d n).trans ?_
  exact shapeCast_1ab_ab_apply k shapeCasts_S1x2048x768_S2048x768 n d

/-- Stage two: the weights of the tile. -/
def weightTile (q : FVec Ideal S1x256x768 .bf16) (k : FVec Ideal S1x2048x768 .bf16) : FVec Ideal S256x2048 .f32 :=
  exp (subf (scoreTile q k)
    (broadcastTo S256x2048 (shapeCast S256x1 (multiReduction .maximumf [1] S256 (scoreTile q k) 0xFF800000#32 reduces_S256x2048_S256 (.inl rfl) rfl)
      shapeCasts_S256_S256x1) broadcasts_S256x1_S256x2048))

/-- The index a reduction along the second axis lifts a row to. -/
theorem lift_row (r : Fin 256) (n : Fin 2048) :
    (reduces_S256x2048_S256 : S256x2048.Reduces [1] S256).lift (ix1 r) n = ix2 r n :=
  funext fun d => Fin.ext (by
    match d with
    | ⟨0, _⟩ => rfl
    | ⟨1, _⟩ => rfl)

theorem weightTile_apply (q : FVec Ideal S1x256x768 .bf16) (k : FVec Ideal S1x2048x768 .bf16) (r : Fin 256) (n : Fin 2048) :
    weightTile q k (ix2 r n) = weight (rowScore q k r) n := by
  unfold weightTile weight
  show Ideal.exp (scoreTile q k (ix2 r n) - broadcastTo S256x2048 _ broadcasts_S256x1_S256x2048 (ix2 r n)) = _
  rw [scoreTile_apply]
  refine congrArg (fun z => Ideal.exp (rowScore q k r n - z)) ?_
  refine (broadcastTo_col_apply _ broadcasts_S256x1_S256x2048 r n).trans ?_
  refine (shapeCast_column_apply _ shapeCasts_S256_S256x1 r (0 : Fin 1)).trans ?_
  refine (rowMax_single (scoreTile q k) reduces_S256x2048_S256 (.inl rfl) rfl (ix1 r)).trans ?_
  unfold peak
  refine congrArg (fun f => (Finset.univ : Finset (Fin 2048)).fold max ⊥ f) (funext fun n' => ?_)
  exact (congrArg (scoreTile q k) (lift_row r n')).trans (scoreTile_apply q k r n')

/-- The row sums of the weights: the mass of each row. -/
theorem massRow_apply (q : FVec Ideal S1x256x768 .bf16) (k : FVec Ideal S1x2048x768 .bf16) (r : Fin 256) :
    multiReduction .add [1] S256 (weightTile q k) 0x00000000#32 reduces_S256x2048_S256 (.inl rfl) rfl (ix1 r) = mass (rowScore q k r) := by
  refine (rowSum_single (weightTile q k) reduces_S256x2048_S256 (.inl rfl) rfl (ix1 r)).trans ?_
  unfold mass
  refine Finset.sum_congr rfl fun n _ => ?_
  exact (congrArg (weightTile q k) (lift_row r n)).trans (weightTile_apply q k r n)

/-- The stored value is the quotient of the weighted values by the stretched column of masses, recast with a leading unit axis. -/
theorem pay1_eq (q : FVec Ideal S1x256x768 .bf16) (k v : FVec Ideal S1x2048x768 .bf16) :
    k1_pay1 (F := Ideal) q k v = shapeCast S1x256x768 (divf
      (matmul dot_S256x2048_S2048x768_S256x768_1_0_0_1_n_n none (truncf .bf16 (weightTile q k) bitsLt_bf16_f32)
        (shapeCast S2048x768 v shapeCasts_S1x2048x768_S2048x768) (constant S256x768 .f32 0x00000000#32))
      (broadcastTo S256x768 (shapeCast S256x1 (multiReduction .add [1] S256 (weightTile q k) 0x00000000#32 reduces_S256x2048_S256 (.inl rfl) rfl)
        shapeCasts_S256_S256x1) broadcasts_S256x1_S256x768)) shapeCasts_S256x768_S1x256x768 := rfl

/-- THE TILE AT AN ENTRY: the weighted sum of the values over the mass. -/
theorem pay1_apply (q : FVec Ideal S1x256x768 .bf16) (k v : FVec Ideal S1x2048x768 .bf16) (u : Fin 1) (r : Fin 256) (o : Fin 768) :
    (k1_pay1 (F := Ideal) q k v (ix3 u r o) : EReal)
      = Ideal.div (∑ n : Fin 2048, weight (rowScore q k r) n * v (ix3 (0 : Fin 1) n o)) (mass (rowScore q k r)) := by
  rw [pay1_eq]
  refine (shapeCast_ab_1ab_apply _ shapeCasts_S256x768_S1x256x768 u r o).trans ?_
  refine (divf_apply (φ := .f32) _ _ (ix2 r o)).trans ?_
  refine congrArg₂ Ideal.div ?_ ?_
  · refine (matmul_zero_plain_apply dot_S256x2048_S2048x768_S256x768_1_0_0_1_n_n plainPV none _ _ r o).trans ?_
    refine Finset.sum_congr rfl fun n _ => ?_
    refine congrArg₂ (· * ·) (weightTile_apply q k r n) ?_
    exact shapeCast_1ab_ab_apply v shapeCasts_S1x2048x768_S2048x768 n o
  · refine (broadcastTo_col_apply _ broadcasts_S256x1_S256x768 r o).trans ?_
    refine (shapeCast_column_apply _ shapeCasts_S256_S256x1 r (0 : Fin 1)).trans ?_
    exact massRow_apply q k r

end Cert.KernelIdeal.Val

end
-- ==== Proof.IdealBlocks1.lean ====
/-
  From blocks to the array in the attention region. The grid has 8 × 8 points; point `t` is batch entry `t / 8` and query
  band `t % 8`: it reads query rows `256·(t % 8) … + 255` of that entry and the entry's whole key and value matrices, and
  writes the same rows of the output. Every output entry is in exactly the block of its batch entry and band, so the output
  array ends, whatever it held before, at the fused attention of the three arrays the region finds.
-/
import proofs.«159391_j18391049961927_2_alg».proof.Proof.IdealRegion1
import proofs.«159391_j18391049961927_2_alg».proof.Proof.IdealPay1
import proofs.«159391_j18391049961927_2_alg».proof.Proof.Attention
import Idealize.ShloMosaic.Lib.Pipeline.Value

set_option maxRecDepth 16384

noncomputable section

open scoped BigOperators

namespace Cert.KernelIdeal.Val

open Idealize.ShloMosaic Idealize.ShloMosaic.ValueIdx
open Cert.KernelIdeal Cert.KernelIdeal.Gen Cert.KernelIdeal.Run Idealize.ShloMosaic.TcCoe Idealize.SL.Sem Cert.Attention Cert.SoftmaxSum
open Idealize.ShloMosaic.Pipeline (Dat)

/-- The body's stored value at `(0, r, o)`, for blocks that are rows of three whole arrays: the fused attention of the arrays
    at the block's place. -/
theorem attn_point (Q K Vv : SA.Idx → EReal) (q : FVec Ideal S1x256x768 .bf16) (k v : FVec Ideal S1x2048x768 .bf16)
    (b : Fin 8) (s : Fin 2048) (u : Fin 1) (r : Fin 256) (o : Fin 768)
    (hq : ∀ d : Fin 768, q (ix3 (0 : Fin 1) r d) = Q (ix3 b s d))
    (hk : ∀ (n : Fin 2048) (d : Fin 768), k (ix3 (0 : Fin 1) n d) = K (ix3 b n d))
    (hv : ∀ n : Fin 2048, v (ix3 (0 : Fin 1) n o) = Vv (ix3 b n o)) :
    (k1_pay1 (F := Ideal) q k v (ix3 u r o) : EReal) = fusedAttn Q K Vv (ix3 b s o) := by
  refine (pay1_apply q k v u r o).trans ?_
  have hs : rowScore q k r = score Q K b s := funext fun n => by
    unfold rowScore score
    exact congrArg (· * scale) (Finset.sum_congr rfl fun d _ => congrArg₂ (· * ·) (hq d) (hk n d))
  show _ = Ideal.div (∑ n : Fin 2048, weight (score Q K b s) n * Vv (ix3 b n o)) (mass (score Q K b s))
  rw [hs]
  exact congrArg (fun z => Ideal.div z (mass (score Q K b s))) (Finset.sum_congr rfl fun n _ => congrArg (weight (score Q K b s) n * ·) (hv n))

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: queries and output at (entry, band), keys and values at the entry. -/
theorem idx1_0 : ∀ t : Fin cfg1.N, win1_0.index t (0 : Fin 3) = t.val / 8 ∧ win1_0.index t (1 : Fin 3) = t.val % 8 ∧ win1_0.index t (2 : Fin 3) = 0 :=
  (by decide +kernel : ∀ t : Fin grid1.N, win1_0.index t (0 : Fin 3) = t.val / 8 ∧ win1_0.index t (1 : Fin 3) = t.val % 8 ∧ win1_0.index t (2 : Fin 3) = 0)
theorem idx1_1 : ∀ t : Fin cfg1.N, win1_1.index t (0 : Fin 3) = t.val / 8 ∧ win1_1.index t (1 : Fin 3) = 0 ∧ win1_1.index t (2 : Fin 3) = 0 :=
  (by decide +kernel : ∀ t : Fin grid1.N, win1_1.index t (0 : Fin 3) = t.val / 8 ∧ win1_1.index t (1 : Fin 3) = 0 ∧ win1_1.index t (2 : Fin 3) = 0)
theorem idx1_2 : ∀ t : Fin cfg1.N, win1_2.index t (0 : Fin 3) = t.val / 8 ∧ win1_2.index t (1 : Fin 3) = 0 ∧ win1_2.index t (2 : Fin 3) = 0 :=
  (by decide +kernel : ∀ t : Fin grid1.N, win1_2.index t (0 : Fin 3) = t.val / 8 ∧ win1_2.index t (1 : Fin 3) = 0 ∧ win1_2.index t (2 : Fin 3) = 0)
theorem idx1_3 : ∀ t : Fin cfg1.N, win1_3.index t (0 : Fin 3) = t.val / 8 ∧ win1_3.index t (1 : Fin 3) = t.val % 8 ∧ win1_3.index t (2 : Fin 3) = 0 :=
  (by decide +kernel : ∀ t : Fin grid1.N, win1_3.index t (0 : Fin 3) = t.val / 8 ∧ win1_3.index t (1 : Fin 3) = t.val % 8 ∧ win1_3.index t (2 : Fin 3) = 0)

/-- The batch entry of a point, and row `r` of its query band as a row of the entry. -/
def entry (t : Fin cfg1.N) : Fin 8 := ⟨t.val / 8, by have ht : t.val < 64 := lt_of_lt_of_eq t.isLt N_1; omega⟩
def qrow (t : Fin cfg1.N) (r : Fin 256) : Fin 2048 :=
  ⟨t.val % 8 * 256 + r.val, by have := r.isLt; omega⟩

/-- The query block at a point is that band of the entry's queries. -/
theorem q_block (c : Dev nD) (t : Fin cfg1.N) (u : Fin 1) (r : Fin 256) (d : Fin 768) :
    (iblk1 V c 0 t (ix3 u r d) : EReal) = (V c main_v10 : S8x2048x768.Idx → EReal) (ix3 (entry t) (qrow t r) d) := by
  show (V c main_v10 : S8x2048x768.Idx → EReal) (((cfg1.win 0).blk t).view.emb (ix3 u r d)) = _
  refine congrArg _ (funext fun a => Fin.ext ?_)
  have hu : u.val = 0 := by omega
  match a with
  | ⟨0, _⟩ => show win1_0.index t (0 : Fin 3) * 1 + 1 * u.val = t.val / 8; rw [(idx1_0 t).1, hu]; omega
  | ⟨1, _⟩ => show win1_0.index t (1 : Fin 3) * 256 + 1 * r.val = t.val % 8 * 256 + r.val; rw [(idx1_0 t).2.1]; omega
  | ⟨2, _⟩ => show win1_0.index t (2 : Fin 3) * 768 + 1 * d.val = d.val; rw [(idx1_0 t).2.2]; omega

/-- The key block at a point is the entry's whole key matrix; -/
theorem k_block (c : Dev nD) (t : Fin cfg1.N) (u : Fin 1) (n : Fin 2048) (d : Fin 768) :
    (iblk1 V c 1 t (ix3 u n d) : EReal) = (V c main_v11 : S8x2048x768.Idx → EReal) (ix3 (entry t) n d) := by
  show (V c main_v11 : S8x2048x768.Idx → EReal) (((cfg1.win 1).blk t).view.emb (ix3 u n d)) = _
  refine congrArg _ (funext fun a => Fin.ext ?_)
  have hu : u.val = 0 := by omega
  match a with
  | ⟨0, _⟩ => show win1_1.index t (0 : Fin 3) * 1 + 1 * u.val = t.val / 8; rw [(idx1_1 t).1, hu]; omega
  | ⟨1, _⟩ => show win1_1.index t (1 : Fin 3) * 2048 + 1 * n.val = n.val; rw [(idx1_1 t).2.1]; omega
  | ⟨2, _⟩ => show win1_1.index t (2 : Fin 3) * 768 + 1 * d.val = d.val; rw [(idx1_1 t).2.2]; omega

/-- and the value block its whole value matrix. -/
theorem v_block (c : Dev nD) (t : Fin cfg1.N) (u : Fin 1) (n : Fin 2048) (o : Fin 768) :
    (iblk1 V c 2 t (ix3 u n o) : EReal) = (V c main_v12 : S8x2048x768.Idx → EReal) (ix3 (entry t) n o) := by
  show (V c main_v12 : S8x2048x768.Idx → EReal) (((cfg1.win 2).blk t).view.emb (ix3 u n o)) = _
  refine congrArg _ (funext fun a => Fin.ext ?_)
  have hu : u.val = 0 := by omega
  match a with
  | ⟨0, _⟩ => show win1_2.index t (0 : Fin 3) * 1 + 1 * u.val = t.val / 8; rw [(idx1_2 t).1, hu]; omega
  | ⟨1, _⟩ => show win1_2.index t (1 : Fin 3) * 2048 + 1 * n.val = n.val; rw [(idx1_2 t).2.1]; omega
  | ⟨2, _⟩ => show win1_2.index t (2 : Fin 3) * 768 + 1 * o.val = o.val; rw [(idx1_2 t).2.2]; omega

/-- What point `t` writes back is block `t` of the fused attention of the arrays the region finds. -/
theorem flushed1_3 (c : Dev nD) (t : Fin cfg1.N) :
    (dat1 V c).flushed 3 t = ((cfg1.win 3).blk t).view.read (Elt Ideal) (fusedAttn (V c main_v10) (V c main_v11) (V c main_v12)) := by
  show (cfg1.win 3).cut (grid1.coords t) ((dat1 V c).after 3 t) = _
  rw [after1_3]
  unfold out1_3
  rw [View.canon_unit_zero hz3]
  simp only [View.ld_unit_zero (S := S1x256x768) hz3, View.ld_unit_zero (S := S1x2048x768) hz3]
  funext y
  obtain ⟨u, r, o, rfl⟩ : ∃ (u : Fin 1) (r : Fin 256) (o : Fin 768), y = ix3 u r o := ⟨y 0, y 1, y 2, eq_ix3 y⟩
  show (k1_pay1 (F := Ideal) (iblk1 V c 0 t) (iblk1 V c 1 t) (iblk1 V c 2 t) (ix3 u r o) : EReal)
    = fusedAttn (V c main_v10) (V c main_v11) (V c main_v12) (((cfg1.win 3).blk t).view.emb (ix3 u r o))
  have hi : ((cfg1.win 3).blk t).view.emb (ix3 u r o) = ix3 (entry t) (qrow t r) o := by
    funext a; apply Fin.ext
    have hu : u.val = 0 := by omega
    match a with
    | ⟨0, _⟩ => show win1_3.index t (0 : Fin 3) * 1 + 1 * u.val = t.val / 8; rw [(idx1_3 t).1, hu]; omega
    | ⟨1, _⟩ => show win1_3.index t (1 : Fin 3) * 256 + 1 * r.val = t.val % 8 * 256 + r.val; rw [(idx1_3 t).2.1]; omega
    | ⟨2, _⟩ => show win1_3.index t (2 : Fin 3) * 768 + 1 * o.val = o.val; rw [(idx1_3 t).2.2]; omega
  rw [hi]
  exact attn_point (V c main_v10) (V c main_v11) (V c main_v12) (iblk1 V c 0 t) (iblk1 V c 1 t) (iblk1 V c 2 t) (entry t) (qrow t r) u r o
    (fun d => q_block V c t 0 r d) (fun n d => k_block V c t 0 n d) (fun n => v_block V c t 0 n o)

theorem mem_blk1_3 (t : Fin cfg1.N) (i : S8x2048x768.Idx) :
    i ∈ ((cfg1.win 3).blk t).view.set ↔ ∀ a : Fin 3, win1_3.index t a * S1x256x768.size a ≤ (i a).val ∧ (i a).val < win1_3.index t a * S1x256x768.size a + S1x256x768.size a := by
  show i ∈ ((View.whole main_v13).slice (win1_3.rect t)).set ↔ _
  rw [View.set_slice_whole, Rect.mem_set_unit]
  exact Iff.rfl

/-- Every output entry lies in the block of its batch entry and band. -/
theorem cover1_3 (i : S8x2048x768.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 768 := (i 2).isLt
  refine ⟨⟨(i 0).val * 8 + (i 1).val / 256, by rw [show cfg1.N = 64 from N_1]; omega⟩, flush1_3 _, ?_⟩
  rw [mem_blk1_3]
  intro a
  match a with
  | ⟨0, _⟩ =>
    show win1_3.index _ (0 : Fin 3) * 1 ≤ (i 0).val ∧ (i 0).val < win1_3.index _ (0 : Fin 3) * 1 + 1
    rw [(idx1_3 _).1]
    show ((i 0).val * 8 + (i 1).val / 256) / 8 * 1 ≤ (i 0).val ∧ (i 0).val < ((i 0).val * 8 + (i 1).val / 256) / 8 * 1 + 1
    omega
  | ⟨1, _⟩ =>
    show win1_3.index _ (1 : Fin 3) * 256 ≤ (i 1).val ∧ (i 1).val < win1_3.index _ (1 : Fin 3) * 256 + 256
    rw [(idx1_3 _).2.1]
    show ((i 0).val * 8 + (i 1).val / 256) % 8 * 256 ≤ (i 1).val ∧ (i 1).val < ((i 0).val * 8 + (i 1).val / 256) % 8 * 256 + 256
    omega
  | ⟨2, _⟩ =>
    show win1_3.index _ (2 : Fin 3) * 768 ≤ (i 2).val ∧ (i 2).val < win1_3.index _ (2 : Fin 3) * 768 + 768
    rw [(idx1_3 _).2.2]
    omega

/-- The output array after the region: the fused attention of the arrays the region finds. -/
theorem final1_3 (c : Dev nD) : (dat1 V c).arrAt 3 cfg1.N = fusedAttn (V c main_v10) (V c main_v11) (V c main_v12) :=
  (dat1 V c).arrAt_eq_of_cover 3 _ (fun t _ => flushed1_3 V c t) cover1_3

end Cert.KernelIdeal.Val

end
-- ==== Proof.LibJoinThree.lean ====
/-
  Three operands of one host operation, and three equal-width matrices laid side by side.

  A host operation with three operands leaves in its result buffer its function applied to the three operands' contents,
  each read at its own reference (`nary3_result`).

  Three matrices of `a` rows and `d` columns joined along the column axis form a matrix of `a` rows and `e` columns whose
  column `p · d + k` (`p < 3`, `k < d`) is column `k` of matrix `p`: the widths of the matrices before the `p`-th sum to
  `p · d`, so the joined matrix at `(n, p · d + k)` is matrix `p` at `(n, k)` (`join3_apply_piece`). Generic extents.
-/
import Idealize.ShloMosaic.Lib.ValueIdx
import Idealize.ShloMosaic.Lib.Pipeline.Value
import Idealize.ShloMosaic.Lib.StableHlo.Run

noncomputable section

namespace Cert.Lib.JoinThree

open Idealize.ShloMosaic Idealize.ShloMosaic.ValueIdx Idealize.ShloMosaic.StableHlo

section Result

variable {nD : Nat} {τ : Topo} {sig : RefSig} {Val : EltTy → Type} {x a b y : Ref sig .tc}

/-- A three-operand host operation's result, with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Result

/-- Three matrices `[a, d]` joined along the columns into `[a, e]`, read at row `n` and column `j = p · d + k`: matrix
    `p` at `(n, k)`. -/
theorem join3_apply_piece {α : Type} {a d e : ℕ} (x0 x1 x2 : (⟨2, ![a, d]⟩ : Shape).Idx → α)
    (h : Shape.Concatenates [(⟨2, ![a, d]⟩ : Shape), ⟨2, ![a, d]⟩, ⟨2, ![a, d]⟩] ⟨2, ![a, e]⟩ 1)
    (n : Fin a) (j : Fin e) (p : ℕ) (hp : p < 3) (k : Fin d) (hj : p * d + k.val = j.val)
    (xp : (⟨2, ![a, d]⟩ : Shape).Idx → α)
    (hxp : ([⟨⟨2, ![a, d]⟩, x0⟩, ⟨⟨2, ![a, d]⟩, x1⟩, ⟨⟨2, ![a, d]⟩, x2⟩] : List ((s : Shape) × (s.Idx → α)))[p]'hp
      = ⟨⟨2, ![a, d]⟩, xp⟩) :
    concatenate ⟨2, ![a, e]⟩ 1 [⟨⟨2, ![a, d]⟩, x0⟩, ⟨⟨2, ![a, d]⟩, x1⟩, ⟨⟨2, ![a, d]⟩, x2⟩] h (ix2 n j) = xp (ix2 n k) := by
  refine concatenate_apply_piece (t := ⟨2, ![a, e]⟩) (1 : Fin 2)
    [⟨⟨2, ![a, d]⟩, x0⟩, ⟨⟨2, ![a, d]⟩, x1⟩, ⟨⟨2, ![a, d]⟩, x2⟩] h (ix2 n j) p hp ⟨2, ![a, d]⟩ xp hxp rfl (p * d) ?_ (ix2 n k) ?_ hj
  · interval_cases p
    · show (0 : ℕ) = 0 * d
      omega
    · show d + 0 = 1 * d
      omega
    · show d + (d + 0) = 2 * d
      omega
  · intro b hb
    match b with
    | ⟨0, _⟩ => rfl
    | ⟨1, _⟩ => exact absurd rfl hb

end Cert.Lib.JoinThree

end
-- ==== Proof.LibRowMerge.lean ====
/-
  Merging the two leading axes of a three-axis array into one, and splitting them again, read at an index.

  A row-major array `[a, b, c]` recast as `[n, c]` with `n = a · b` keeps every entry at the same row-major position: entry
  `(p, r, k)` becomes entry `(p · b + r, k)` (`shapeCast_merge_apply`); the recast back reads entry `(p · b + r, k)` at
  `(p, r, k)` (`shapeCast_split_apply`). Generic extents; the merged row index is `rowOf`.
-/
import Idealize.ShloMosaic.Lib.ValueIdx
import Idealize.ShloMosaic.Lib.Pipeline.Value

noncomputable section

namespace Cert.Lib.RowMerge

open Idealize.ShloMosaic Idealize.ShloMosaic.ValueIdx

/-- Row `r` of block `p`, among `a` blocks of `b` rows each, as a row of the merged axis of extent `n = a · b`. -/
def rowOf {a b n : ℕ} (h : a * b = n) (p : Fin a) (r : Fin b) : Fin n :=
  ⟨p.val * b + r.val, lt_of_lt_of_eq (calc p.val * b + r.val < p.val * b + b := Nat.add_lt_add_left r.isLt _
    _ = (p.val + 1) * b := (Nat.succ_mul _ _).symm
    _ ≤ a * b := Nat.mul_le_mul_right b p.isLt) h⟩

theorem rowOf_val {a b n : ℕ} (h : a * b = n) (p : Fin a) (r : Fin b) : (rowOf h p r).val = p.val * b + r.val := rfl

/-- Every row of the merged axis is some row of some block. -/
theorem exists_rowOf {a b n : ℕ} (h : a * b = n) (hb : 0 < b) (i : Fin n) : ∃ (p : Fin a) (r : Fin b), i = rowOf h p r := by
  have hi : i.val < a * b := lt_of_lt_of_eq i.isLt h.symm
  refine ⟨⟨i.val / b, (Nat.div_lt_iff_lt_mul hb).mpr hi⟩, ⟨i.val % b, Nat.mod_lt _ hb⟩, Fin.ext ?_⟩
  show i.val = i.val / b * b + i.val % b
  rw [Nat.mul_comm]; exact (Nat.div_add_mod _ _).symm

/-- The merged array at `(p · b + r, k)` is the array at `(p, r, k)`. -/
theorem shapeCast_merge_apply {α : Type} {a b c n : ℕ} (hn : a * b = n) (x : (⟨3, ![a, b, c]⟩ : Shape).Idx → α)
    (h : (⟨3, ![a, b, c]⟩ : Shape).ShapeCasts ⟨2, ![n, c]⟩) (p : Fin a) (r : Fin b) (k : Fin c) :
    shapeCast ⟨2, ![n, c]⟩ x h (ix2 (rowOf hn p r) k) = x (ix3 p r k) :=
  shapeCast_apply x h _ _ (by
    rw [Shape.rowMajor_val_three, Shape.rowMajor_val_two]
    show (p.val * b + r.val) * c + k.val = (p.val * b + r.val) * c + k.val
    rfl)

/-- The array split again at `(p, r, k)` is the merged array at `(p · b + r, k)`. -/
theorem shapeCast_split_apply {α : Type} {a b c n : ℕ} (hn : a * b = n) (y : (⟨2, ![n, c]⟩ : Shape).Idx → α)
    (h : (⟨2, ![n, c]⟩ : Shape).ShapeCasts ⟨3, ![a, b, c]⟩) (p : Fin a) (r : Fin b) (k : Fin c) :
    shapeCast ⟨3, ![a, b, c]⟩ y h (ix3 p r k) = y (ix2 (rowOf hn p r) k) :=
  shapeCast_apply y h _ _ (by
    rw [Shape.rowMajor_val_three, Shape.rowMajor_val_two]
    show (p.val * b + r.val) * c + k.val = (p.val * b + r.val) * c + k.val
    rfl)

end Cert.Lib.RowMerge

end
-- ==== Proof.IdealHost.lean ====
/-
  What the host operations around the two kernel regions leave in the regions' input arrays, read at an index, at exact
  values.

  Before the projection region the activations `[8, 2048, 768]` are recast as `[16384, 768]`: row `b · 2048 + s` of the
  recast array is row `(b, s)` of the activations. The three weight matrices — slice `j` of the stacked weights
  `[3, 768, 768]`, recast `[1, 768, 768] → [768, 768]` — are laid side by side along the columns into `[768, 2304]` and rounded
  to the narrower float format, which at exact values is the identity: entry `(d, 768 · j + o)` of the joined array is entry
  `(j, d, o)` of the stacked weights. Between the regions each of the three projection outputs `[16384, 768]` is recast as
  `[8, 2048, 768]`: entry `(b, s, o)` of the recast array is entry `(b · 2048 + s, o)` of the output.
-/
import proofs.«159391_j18391049961927_2_alg».proof.Proof.IdealRun
import proofs.«159391_j18391049961927_2_alg».proof.Proof.LibJoinThree
import proofs.«159391_j18391049961927_2_alg».proof.Proof.LibRowMerge
import Idealize.ShloMosaic.Lib.ValueLayout
import Idealize.ShloMosaic.Lib.Pipeline.Value
import Idealize.ShloMosaic.Lib.StableHlo.Run

noncomputable section

namespace Cert.KernelIdeal.Val

open Cert.KernelIdeal Cert.KernelIdeal.Gen Cert.KernelIdeal.Run Idealize.ShloMosaic Idealize.ShloMosaic.ValueIdx
  Idealize.ShloMosaic.TcCoe Cert.Lib.RowMerge Cert.Lib.JoinThree

variable (m : (ℓ : Loc nD τ sig) → Buf (Elt Ideal) ℓ) (ρ : Dev nD → PrngReg) (c : Dev nD)

/-- Each remaining host operation's result: its function's value at its own buffer, what was there at any other. -/
local macro "host_results" : tactic =>
  `(tactic| repeat (first
      | rw [StableHlo.unary_result] | rw [StableHlo.reshape_result]
      | (rw [StableHlo.unary_result_ne]; rotate_left; decide)
      | (rw [StableHlo.reshape_result_ne]; rotate_left; decide)
      | (rw [StableHlo.nary_result_ne]; rotate_left; decide)))

/-! ## The activations, rows merged -/

/-- The recast activations at row `b · 2048 + s` are the activations at row `(b, s)`. -/
theorem rows_read (b : Fin 8) (s : Fin 2048) (d : Fin 768) :
    (V1 (F := Ideal) m ρ c main_v0 : S16384x768.Idx → EReal) (ix2 (rowOf (a := 8) (b := 2048) (n := 16384) rfl b s) d)
      = (m ((c : Thread nD τ).loc main_arg0) : S8x2048x768.Idx → EReal) (ix3 b s d) := by
  have e : (V1 (F := Ideal) m ρ c main_v0 : S16384x768.Idx → EReal)
      = shapeCast S16384x768 (m ((c : Thread nD τ).loc main_arg0) : S8x2048x768.Idx → EReal) shapeCasts_S8x2048x768_S16384x768 := by
    show StableHlo.after hostOps0 (W0 m ρ c) (Proc.devRef .tc main_v0) = _
    after_results
    rfl
  rw [e]
  exact shapeCast_merge_apply (a := 8) (b := 2048) (c := 768) (n := 16384) rfl _ _ b s d

/-! ## The three weight matrices side by side -/

/-- A slice of one matrix off the stacked weights, recast to a matrix, at row `d` and column `o`. -/
private theorem slice_apply (W : S3x768x768.Idx → EReal) (p : Fin 3) (off : Fin S3x768x768.rank → ℕ) (h : S3x768x768.Slices off S1x768x768)
    (h0 : off 0 = p.val) (h1 : off 1 = 0) (h2 : off 2 = 0) (d o : Fin 768) :
    shapeCast S768x768 (extractStridedSlice S1x768x768 off W h) shapeCasts_S1x768x768_S768x768 (ix2 d o) = W (ix3 p d o) := by
  refine (shapeCast_1ab_ab_apply _ _ d o).trans ?_
  refine extractStridedSlice_apply off W h _ (ix3 p d o) fun a => ?_
  match a with
  | ⟨0, _⟩ => show p.val = off 0 + 0; rw [h0]; rfl
  | ⟨1, _⟩ => show d.val = off 1 + d.val; rw [h1, Nat.zero_add]
  | ⟨2, _⟩ => show o.val = off 2 + o.val; rw [h2, Nat.zero_add]

/-- The joined weights as the host operations' term: the three slices, each recast, joined along the columns, then the
    format change. -/
private theorem weights_term :
    (V1 (F := Ideal) m ρ c main_v8 : S768x2304.Idx → EReal)
      = truncf (F := Ideal) .bf16 (concatenate S768x2304 1
          [⟨S768x768, shapeCast S768x768 (extractStridedSlice S1x768x768 ![0, 0, 0] (m ((c : Thread nD τ).loc main_arg1) : S3x768x768.Idx → EReal) slices_S3x768x768_S1x768x768_0_0_0) shapeCasts_S1x768x768_S768x768⟩,
           ⟨S768x768, shapeCast S768x768 (extractStridedSlice S1x768x768 ![1, 0, 0] (m ((c : Thread nD τ).loc main_arg1) : S3x768x768.Idx → EReal) slices_S3x768x768_S1x768x768_1_0_0) shapeCasts_S1x768x768_S768x768⟩,
           ⟨S768x768, shapeCast S768x768 (extractStridedSlice S1x768x768 ![2, 0, 0] (m ((c : Thread nD τ).loc main_arg1) : S3x768x768.Idx → EReal) slices_S3x768x768_S1x768x768_2_0_0) shapeCasts_S1x768x768_S768x768⟩]
          concatenates_S768x768_S768x768_S768x768_S768x2304_d1 : FVec Ideal S768x2304 .f32) bitsLt_bf16_f32 := by
  show StableHlo.after hostOps0 (W0 m ρ c) (Proc.devRef .tc main_v8) = _
  simp only [StableHlo.after_cons, StableHlo.after_nil]
  rw [StableHlo.unary_result, nary3_result]
  host_results
  rfl

/-- Entry `(d, 768 · j + o)` of the joined weights is entry `(j, d, o)` of the stacked weights. -/
theorem weights_read (j : Fin 3) (d o : Fin 768) :
    (V1 (F := Ideal) m ρ c main_v8 : S768x2304.Idx → EReal) (ix2 d (⟨768 * j.val + o.val, by have := j.isLt; have := o.isLt; omega⟩ : Fin 2304))
      = (m ((c : Thread nD τ).loc main_arg1) : S3x768x768.Idx → EReal) (ix3 j d o) := by
  rw [weights_term]
  refine (truncf_apply (s := S768x2304) (φ := .f32) (ψ := .bf16) _ bitsLt_bf16_f32 _).trans ?_
  match j with
  | ⟨0, hj⟩ =>
    exact (join3_apply_piece (a := 768) (d := 768) (e := 2304) _ _ _ _ d _ 0 (by decide) o
      (by show 0 * 768 + o.val = 768 * 0 + o.val; omega) _ rfl).trans
      (slice_apply _ ⟨0, hj⟩ ![0, 0, 0] slices_S3x768x768_S1x768x768_0_0_0 rfl rfl rfl d o)
  | ⟨1, hj⟩ =>
    exact (join3_apply_piece (a := 768) (d := 768) (e := 2304) _ _ _ _ d _ 1 (by decide) o
      (by show 1 * 768 + o.val = 768 * 1 + o.val; omega) _ rfl).trans
      (slice_apply _ ⟨1, hj⟩ ![1, 0, 0] slices_S3x768x768_S1x768x768_1_0_0 rfl rfl rfl d o)
  | ⟨2, hj⟩ =>
    exact (join3_apply_piece (a := 768) (d := 768) (e := 2304) _ _ _ _ d _ 2 (by decide) o
      (by show 2 * 768 + o.val = 768 * 2 + o.val; omega) _ rfl).trans
      (slice_apply _ ⟨2, hj⟩ ![2, 0, 0] slices_S3x768x768_S1x768x768_2_0_0 rfl rfl rfl d o)

/-! ## The three projection outputs, rows split -/

/-- The recast queries at `(b, s, o)` are the first projection output at row `b · 2048 + s`. -/
theorem queries_read (b : Fin 8) (s : Fin 2048) (o : Fin 768) :
    (V3 (F := Ideal) m ρ c main_v10 : S8x2048x768.Idx → EReal) (ix3 b s o)
      = (V2 (F := Ideal) m ρ c main_v9_0 : S16384x768.Idx → EReal) (ix2 (rowOf (a := 8) (b := 2048) (n := 16384) rfl b s) o) := by
  have e : (V3 (F := Ideal) m ρ c main_v10 : S8x2048x768.Idx → EReal)
      = shapeCast S8x2048x768 (W2 (F := Ideal) m ρ c (Proc.devRef .tc main_v9_0) : S16384x768.Idx → EReal) shapeCasts_S16384x768_S8x2048x768 := by
    show StableHlo.after hostOps1 (W2 m ρ c) (Proc.devRef .tc main_v10) = _
    after_results
    rfl
  rw [e]
  exact shapeCast_split_apply (a := 8) (b := 2048) (c := 768) (n := 16384) rfl _ _ b s o

/-- The recast keys at `(b, s, o)` are the second projection output at row `b · 2048 + s`. -/
theorem keys_read (b : Fin 8) (s : Fin 2048) (o : Fin 768) :
    (V3 (F := Ideal) m ρ c main_v11 : S8x2048x768.Idx → EReal) (ix3 b s o)
      = (V2 (F := Ideal) m ρ c main_v9_1 : S16384x768.Idx → EReal) (ix2 (rowOf (a := 8) (b := 2048) (n := 16384) rfl b s) o) := by
  have e : (V3 (F := Ideal) m ρ c main_v11 : S8x2048x768.Idx → EReal)
      = shapeCast S8x2048x768 (W2 (F := Ideal) m ρ c (Proc.devRef .tc main_v9_1) : S16384x768.Idx → EReal) shapeCasts_S16384x768_S8x2048x768 := by
    show StableHlo.after hostOps1 (W2 m ρ c) (Proc.devRef .tc main_v11) = _
    after_results
    rfl
  rw [e]
  exact shapeCast_split_apply (a := 8) (b := 2048) (c := 768) (n := 16384) rfl _ _ b s o

/-- The recast values at `(b, s, o)` are the third projection output at row `b · 2048 + s`. -/
theorem values_read (b : Fin 8) (s : Fin 2048) (o : Fin 768) :
    (V3 (F := Ideal) m ρ c main_v12 : S8x2048x768.Idx → EReal) (ix3 b s o)
      = (V2 (F := Ideal) m ρ c main_v9_2 : S16384x768.Idx → EReal) (ix2 (rowOf (a := 8) (b := 2048) (n := 16384) rfl b s) o) := by
  have e : (V3 (F := Ideal) m ρ c main_v12 : S8x2048x768.Idx → EReal)
      = shapeCast S8x2048x768 (W2 (F := Ideal) m ρ c (Proc.devRef .tc main_v9_2) : S16384x768.Idx → EReal) shapeCasts_S16384x768_S8x2048x768 := by
    show StableHlo.after hostOps1 (W2 m ρ c) (Proc.devRef .tc main_v12) = _
    after_results
    rfl
  rw [e]
  exact shapeCast_split_apply (a := 8) (b := 2048) (c := 768) (n := 16384) rfl _ _ b s o

end Cert.KernelIdeal.Val

end
-- ==== Proof.IdealValue.lean ====
/-
  What the idealized kernel's result array holds after the run, as one function of the two argument arrays: the fused
  attention of the three projections. The attention region leaves the fused attention of the arrays it finds; those are
  the projection region's three outputs recast to [8, 2048, 768]; each output is the whole product of the flattened
  activations with a third of the joined weights; and at row `2048·b + s`, column `o`, that product is the sum over `d` of
  `x (b, s, d) · w (j, d, o)`.
-/
import proofs.«159391_j18391049961927_2_alg».proof.Proof.IdealRun
import proofs.«159391_j18391049961927_2_alg».proof.Proof.IdealBlocks0
import proofs.«159391_j18391049961927_2_alg».proof.Proof.IdealBlocks1
import proofs.«159391_j18391049961927_2_alg».proof.Proof.IdealHost
import proofs.«159391_j18391049961927_2_alg».proof.Proof.Attention

set_option maxRecDepth 16384

noncomputable section

open scoped BigOperators

namespace Cert.KernelIdeal.Val

open Idealize.ShloMosaic Idealize.ShloMosaic.ValueIdx
open Cert.KernelIdeal Cert.KernelIdeal.Gen Cert.KernelIdeal.Run Idealize.ShloMosaic.TcCoe Idealize.SL.Sem Cert.Attention Cert.Lib.RowMerge

variable (m : (ℓ : Loc nD τ sig) → Buf (Elt Ideal) ℓ) (ρ : Dev nD → PrngReg) (c : Dev nD)

/-- Output `j` of the projection region, at row `2048·b + s` and column `o`: projection `j` of the activations. -/
theorem projFlat_read (j : Fin 3) (b : Fin 8) (s : Fin 2048) (o : Fin 768) :
    projFlat j (V1 (F := Ideal) m ρ c main_v0) (V1 (F := Ideal) m ρ c main_v8) (ix2 (rowOf (a := 8) (b := 2048) (n := 16384) rfl b s) o)
      = proj (m ((c : Thread nD τ).loc main_arg0)) (m ((c : Thread nD τ).loc main_arg1)) j b s o := by
  unfold projFlat proj
  exact Finset.sum_congr rfl fun d _ => congrArg₂ (· * ·) (rows_read m ρ c b s d) (weights_read m ρ c j d o)

/-- The queries the attention region finds are projection 0 of the activations; -/
theorem queries_eq : (V3 (F := Ideal) m ρ c main_v10 : S8x2048x768.Idx → EReal)
    = projArr (m ((c : Thread nD τ).loc main_arg0)) (m ((c : Thread nD τ).loc main_arg1)) 0 := by
  funext i
  obtain ⟨b, s, o, rfl⟩ : ∃ (b : Fin 8) (s : Fin 2048) (o : Fin 768), i = ix3 b s o := ⟨i 0, i 1, i 2, eq_ix3 i⟩
  refine (queries_read m ρ c b s o).trans ?_
  have h2 : (V2 (F := Ideal) m ρ c main_v9_0 : S16384x768.Idx → EReal) = projFlat 0 (V1 (F := Ideal) m ρ c main_v0) (V1 (F := Ideal) m ρ c main_v8) :=
    (W2_arr m ρ c 2).trans (final0_2 (V1 m ρ) c)
  rw [h2]
  exact projFlat_read m ρ c 0 b s o

/-- the keys projection 1; -/
theorem keys_eq : (V3 (F := Ideal) m ρ c main_v11 : S8x2048x768.Idx → EReal)
    = projArr (m ((c : Thread nD τ).loc main_arg0)) (m ((c : Thread nD τ).loc main_arg1)) 1 := by
  funext i
  obtain ⟨b, s, o, rfl⟩ : ∃ (b : Fin 8) (s : Fin 2048) (o : Fin 768), i = ix3 b s o := ⟨i 0, i 1, i 2, eq_ix3 i⟩
  refine (keys_read m ρ c b s o).trans ?_
  have h2 : (V2 (F := Ideal) m ρ c main_v9_1 : S16384x768.Idx → EReal) = projFlat 1 (V1 (F := Ideal) m ρ c main_v0) (V1 (F := Ideal) m ρ c main_v8) :=
    (W2_arr m ρ c 3).trans (final0_3 (V1 m ρ) c)
  rw [h2]
  exact projFlat_read m ρ c 1 b s o

/-- the values projection 2. -/
theorem values_eq : (V3 (F := Ideal) m ρ c main_v12 : S8x2048x768.Idx → EReal)
    = projArr (m ((c : Thread nD τ).loc main_arg0)) (m ((c : Thread nD τ).loc main_arg1)) 2 := by
  funext i
  obtain ⟨b, s, o, rfl⟩ : ∃ (b : Fin 8) (s : Fin 2048) (o : Fin 768), i = ix3 b s o := ⟨i 0, i 1, i 2, eq_ix3 i⟩
  refine (values_read m ρ c b s o).trans ?_
  have h2 : (V2 (F := Ideal) m ρ c main_v9_2 : S16384x768.Idx → EReal) = projFlat 2 (V1 (F := Ideal) m ρ c main_v0) (V1 (F := Ideal) m ρ c main_v8) :=
    (W2_arr m ρ c 4).trans (final0_4 (V1 m ρ) c)
  rw [h2]
  exact projFlat_read m ρ c 2 b s o

/-- THE RESULT ARRAY after the run: the fused attention of the three projections of the activations. -/
theorem result_eq : (W4 (F := Ideal) m ρ c (Proc.devRef .tc main_v13) : S8x2048x768.Idx → EReal)
    = fusedAttn (projArr (m ((c : Thread nD τ).loc main_arg0)) (m ((c : Thread nD τ).loc main_arg1)) 0)
        (projArr (m ((c : Thread nD τ).loc main_arg0)) (m ((c : Thread nD τ).loc main_arg1)) 1)
        (projArr (m ((c : Thread nD τ).loc main_arg0)) (m ((c : Thread nD τ).loc main_arg1)) 2) := by
  refine ((W4_arr m ρ c 3).trans (final1_3 (V3 m ρ) c)).trans ?_
  rw [queries_eq m ρ c, keys_eq m ρ c, values_eq m ρ c]

end Cert.KernelIdeal.Val

end
-- ==== Proof.RefValue.lean ====
/-
  The reference program read one stage at a time, and identified with self-attention written on the extended reals.

  The three slices of the stacked weights, reshaped, are the three weight matrices; each dot_general of the activations
  with one of them is a projection (a sum over the 768 input columns). The batched dot_general of queries with keys, times
  the broadcast scale word, is the score; the maximum-reduce from -∞ over the key axis (joined once more with -∞) is the
  row's peak; the exponential of score minus peak is the weight; the add-reduce from zero is the mass; the quotient is the
  weight over the mass; and the last batched dot_general sums those quotients against the values.
-/
import proofs.«159391_j18391049961927_2_alg».proof.Proof.Gen.ReferenceIdeal.Read
import proofs.«159391_j18391049961927_2_alg».proof.Proof.Attention
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read
  Cert.Attention Cert.SoftmaxSum

/-- The activations and the stacked weights, as the reference program's arguments. -/
abbrev XA := (⟨S8x2048x768, .f32⟩ : BufTy).Contents (Elt Ideal)
abbrev XW := (⟨S3x768x768, .f32⟩ : BufTy).Contents (Elt Ideal)

/-! ## The three weight matrices -/

/-- Slice 0 of the stacked weights, reshaped to a matrix, at row `d` and column `o`. -/
theorem w0_apply (x1 : XW) (d o : Fin 768) : val_main_v1 (F := Ideal) x1 (ix2 d o) = x1 (ix3 (0 : Fin 3) d o) := by
  rw [val_main_v1_apply, val_main_v0_apply]
  refine congrArg x1 (funext fun a => Fin.ext ?_)
  have hd := d.isLt
  have ho := o.isLt
  match a with
  | ⟨0, _⟩ => rfl
  | ⟨1, _⟩ => show (d.val * 768 + o.val) / 768 % 768 = d.val; omega
  | ⟨2, _⟩ => show (d.val * 768 + o.val) % 768 = o.val; omega

/-- Slice 1. -/
theorem w1_apply (x1 : XW) (d o : Fin 768) : val_main_v4 (F := Ideal) x1 (ix2 d o) = x1 (ix3 (1 : Fin 3) d o) := by
  rw [val_main_v4_apply, val_main_v3_apply]
  refine congrArg x1 (funext fun a => Fin.ext ?_)
  have hd := d.isLt
  have ho := o.isLt
  match a with
  | ⟨0, _⟩ => rfl
  | ⟨1, _⟩ => show (d.val * 768 + o.val) / 768 % 768 = d.val; omega
  | ⟨2, _⟩ => show (d.val * 768 + o.val) % 768 = o.val; omega

/-- Slice 2. -/
theorem w2_apply (x1 : XW) (d o : Fin 768) : val_main_v7 (F := Ideal) x1 (ix2 d o) = x1 (ix3 (2 : Fin 3) d o) := by
  rw [val_main_v7_apply, val_main_v6_apply]
  refine congrArg x1 (funext fun a => Fin.ext ?_)
  have hd := d.isLt
  have ho := o.isLt
  match a with
  | ⟨0, _⟩ => rfl
  | ⟨1, _⟩ => show (d.val * 768 + o.val) / 768 % 768 = d.val; omega
  | ⟨2, _⟩ => show (d.val * 768 + o.val) % 768 = o.val; omega

/-! ## The three projections -/

/-- The queries: projection 0. -/
theorem q_apply (x0 : XA) (x1 : XW) (b : Fin 8) (s : Fin 2048) (o : Fin 768) :
    val_main_v2 (F := Ideal) x0 x1 (ix3 b s o) = proj x0 x1 0 b s o := by
  rw [val_main_v2_apply]
  unfold proj
  refine Finset.sum_congr rfl fun d _ => ?_
  have hl : lidx_main_v2 (ix3 b s o) d = ix3 b s d := funext fun a => by
    match a with | ⟨0, _⟩ => rfl | ⟨1, _⟩ => rfl | ⟨2, _⟩ => rfl
  have hr : ridx_main_v2 (ix3 b s o) d = ix2 d o := funext fun a => by
    match a with | ⟨0, _⟩ => rfl | ⟨1, _⟩ => rfl
  rw [hl, hr, w0_apply]

/-- The keys: projection 1. -/
theorem k_apply (x0 : XA) (x1 : XW) (b : Fin 8) (s : Fin 2048) (o : Fin 768) :
    val_main_v5 (F := Ideal) x0 x1 (ix3 b s o) = proj x0 x1 1 b s o := by
  rw [val_main_v5_apply]
  unfold proj
  refine Finset.sum_congr rfl fun d _ => ?_
  have hl : lidx_main_v5 (ix3 b s o) d = ix3 b s d := funext fun a => by
    match a with | ⟨0, _⟩ => rfl | ⟨1, _⟩ => rfl | ⟨2, _⟩ => rfl
  have hr : ridx_main_v5 (ix3 b s o) d = ix2 d o := funext fun a => by
    match a with | ⟨0, _⟩ => rfl | ⟨1, _⟩ => rfl
  rw [hl, hr, w1_apply]

/-- The values: projection 2. -/
theorem v_apply (x0 : XA) (x1 : XW) (b : Fin 8) (s : Fin 2048) (o : Fin 768) :
    val_main_v8 (F := Ideal) x0 x1 (ix3 b s o) = proj x0 x1 2 b s o := by
  rw [val_main_v8_apply]
  unfold proj
  refine Finset.sum_congr rfl fun d _ => ?_
  have hl : lidx_main_v8 (ix3 b s o) d = ix3 b s d := funext fun a => by
    match a with | ⟨0, _⟩ => rfl | ⟨1, _⟩ => rfl | ⟨2, _⟩ => rfl
  have hr : ridx_main_v8 (ix3 b s o) d = ix2 d o := funext fun a => by
    match a with | ⟨0, _⟩ => rfl | ⟨1, _⟩ => rfl
  rw [hl, hr, w2_apply]

/-- As arrays, the three projections of the activations by the stacked weights. -/
theorem q_eq (x0 : XA) (x1 : XW) : val_main_v2 (F := Ideal) x0 x1 = projArr x0 x1 0 := by
  funext i
  obtain ⟨b, s, o, rfl⟩ : ∃ (b : Fin 8) (s : Fin 2048) (o : Fin 768), i = ix3 b s o := ⟨i 0, i 1, i 2, eq_ix3 i⟩
  exact q_apply x0 x1 b s o

theorem k_eq (x0 : XA) (x1 : XW) : val_main_v5 (F := Ideal) x0 x1 = projArr x0 x1 1 := by
  funext i
  obtain ⟨b, s, o, rfl⟩ : ∃ (b : Fin 8) (s : Fin 2048) (o : Fin 768), i = ix3 b s o := ⟨i 0, i 1, i 2, eq_ix3 i⟩
  exact k_apply x0 x1 b s o

theorem v_eq (x0 : XA) (x1 : XW) : val_main_v8 (F := Ideal) x0 x1 = projArr x0 x1 2 := by
  funext i
  obtain ⟨b, s, o, rfl⟩ : ∃ (b : Fin 8) (s : Fin 2048) (o : Fin 768), i = ix3 b s o := ⟨i 0, i 1, i 2, eq_ix3 i⟩
  exact v_apply x0 x1 b s o

/-! ## The scores -/

/-- The batched product of queries with keys, at query row `s` and key row `n`. -/
theorem qk_apply (x0 : XA) (x1 : XW) (b : Fin 8) (s n : Fin 2048) :
    val_main_v9 (F := Ideal) x0 x1 (ix3 b s n)
      = ∑ o : Fin 768, val_main_v2 (F := Ideal) x0 x1 (ix3 b s o) * val_main_v5 (F := Ideal) x0 x1 (ix3 b n o) := by
  rw [val_main_v9_apply]
  refine Finset.sum_congr rfl fun o _ => ?_
  have hl : lidx_main_v9 (ix3 b s n) o = ix3 b s o := funext fun a => by
    match a with | ⟨0, _⟩ => rfl | ⟨1, _⟩ => rfl | ⟨2, _⟩ => rfl
  have hr : ridx_main_v9 (ix3 b s n) o = ix3 b n o := funext fun a => by
    match a with | ⟨0, _⟩ => rfl | ⟨1, _⟩ => rfl | ⟨2, _⟩ => rfl
  rw [hl, hr]

/-- The product times the broadcast scale word is the score. -/
theorem score_apply (x0 : XA) (x1 : XW) (b : Fin 8) (s n : Fin 2048) :
    val_main_v11 (F := Ideal) x0 x1 (ix3 b s n) = score (projArr x0 x1 0) (projArr x0 x1 1) b s n := by
  rw [val_main_v11_apply, Ideal.mulf_def, qk_apply, val_main_v10_apply, val_main_cst_apply, Ideal.ofBits_def, q_eq, k_eq]
  rfl

/-- A row of the score array is the row of scores. -/
theorem score_row (x0 : XA) (x1 : XW) (b : Fin 8) (s : Fin 2048) :
    (fun n : Fin 2048 => val_main_v11 (F := Ideal) x0 x1 (ix3 b s n)) = score (projArr x0 x1 0) (projArr x0 x1 1) b s :=
  funext fun n => score_apply x0 x1 b s n

/-! ## The peak of a row -/

/-- A row index with a key coordinate put back on the last axis. -/
theorem lift_row (h : S8x2048x2048.Reduces [2] S8x2048) (b : Fin 8) (s : Fin 2048) (k : Fin (S8x2048x2048.size 2)) :
    h.lift (ix2 b s) k = ix3 b s (⟨k.val, k.isLt⟩ : Fin 2048) := by
  funext c; apply Fin.ext
  fin_cases c <;> rfl

/-- The word of -∞ is `⊥`. -/
theorem ofBits_bot : Ideal.ofBits .f32 0xFF800000#32 = (⊥ : EReal) := by
  simp [Ideal.ofBits, Ideal.ieee]

/-- From -∞ the maximum-reduce over the key axis of any array, at row `(b, s)`, is that row's peak. -/
theorem reduce_max_row (y : (⟨S8x2048x2048, .f32⟩ : BufTy).Contents (Elt Ideal)) (b : Fin 8) (s : Fin 2048) :
    (Host.reduce (FloatOps.maximumf (F := Ideal) (φ := .f32)) y (val_main_cst_0 (F := Ideal)) reducesTo_S8x2048x2048_S8x2048_d2 h_S_
        : (⟨S8x2048, .f32⟩ : BufTy).Contents (Elt Ideal)) (ix2 b s)
      = peak (fun n : Fin 2048 => y (ix3 b s n)) := by
  have h : S8x2048x2048.Reduces [2] S8x2048 := by decide
  rw [Host.reduce_eq_fold_single (FloatOps.maximumf (F := Ideal) (φ := .f32)) y _ reducesTo_S8x2048x2048_S8x2048_d2 h h_S_]
  have hf : (y ∘ h.lift (ix2 b s)) = fun n : Fin 2048 => y (ix3 b s n) := funext fun k => congrArg y (lift_row h b s k)
  have hi : val_main_cst_0 (F := Ideal) (Shape.Idx.first h_S_) = (⊥ : EReal) := by
    rw [val_main_cst_0_apply, Ideal.ofBits_def, ofBits_bot]
  rw [hi]
  unfold peak
  exact congrArg (fun f => Finset.fold max (⊥ : EReal) f (Finset.univ : Finset (Fin 2048))) hf

/-- The row's peak, as the reference computes it. -/
theorem peak_apply (x0 : XA) (x1 : XW) (b : Fin 8) (s : Fin 2048) :
    val_main_v14 (F := Ideal) x0 x1 (ix2 b s) = peak (fun n : Fin 2048 => val_main_v11 (F := Ideal) x0 x1 (ix3 b s n)) := by
  rw [val_main_v14_apply, Ideal.maximumf_def, val_main_v13_apply, val_main_cst_1_apply, Ideal.ofBits_def, ofBits_bot]
  unfold val_main_v12
  generalize val_main_v11 (F := Ideal) x0 x1 = y
  exact (congrArg (fun z : EReal => max ⊥ z) (reduce_max_row y b s)).trans (max_bot_left _)

/-! ## Weights, mass and quotients -/

/-- The exponential of score minus peak is the weight. -/
theorem weight_apply (x0 : XA) (x1 : XW) (b : Fin 8) (s n : Fin 2048) :
    val_main_v18 (F := Ideal) x0 x1 (ix3 b s n)
      = weight (fun n : Fin 2048 => val_main_v11 (F := Ideal) x0 x1 (ix3 b s n)) n := by
  rw [val_main_v18_apply, Ideal.hostUnary_exp_def, val_main_v17_apply, Ideal.subf_def, val_main_v16_apply, val_main_v15_apply]
  have hi : idx_main_v15 (idx_main_v16 (ix3 b s n)) = ix2 b s := funext fun a => by
    match a with | ⟨0, _⟩ => rfl | ⟨1, _⟩ => rfl
  rw [hi, peak_apply]
  rfl

/-- The add-reduce from zero of the weights is the mass. -/
theorem mass_apply (x0 : XA) (x1 : XW) (b : Fin 8) (s : Fin 2048) :
    val_main_v19 (F := Ideal) x0 x1 (ix2 b s) = mass (fun n : Fin 2048 => val_main_v11 (F := Ideal) x0 x1 (ix3 b s n)) := by
  rw [val_main_v19_apply, val_main_cst_2_apply, Ideal.ofBits_def, Ideal.ofBits_zero_f32, zero_add]
  unfold mass
  refine Finset.sum_congr rfl fun n _ => ?_
  have hi : idx_main_v19 (ix2 b s) n = ix3 b s n := funext fun a => by
    match a with | ⟨0, _⟩ => rfl | ⟨1, _⟩ => rfl | ⟨2, _⟩ => rfl
  rw [hi, weight_apply]

/-- The weight over the mass. -/
theorem quot_apply (x0 : XA) (x1 : XW) (b : Fin 8) (s n : Fin 2048) :
    val_main_v22 (F := Ideal) x0 x1 (ix3 b s n)
      = Ideal.div (weight (fun n : Fin 2048 => val_main_v11 (F := Ideal) x0 x1 (ix3 b s n)) n)
          (mass (fun n : Fin 2048 => val_main_v11 (F := Ideal) x0 x1 (ix3 b s n))) := by
  rw [val_main_v22_apply, Ideal.hostDivf_def, val_main_v21_apply, val_main_v20_apply]
  have hi : idx_main_v20 (idx_main_v21 (ix3 b s n)) = ix2 b s := funext fun a => by
    match a with | ⟨0, _⟩ => rfl | ⟨1, _⟩ => rfl
  rw [hi, mass_apply, weight_apply]

/-! ## The output -/

/-- The last batched product, at row `(b, s)` and column `o`. -/
theorem out_apply (x0 : XA) (x1 : XW) (b : Fin 8) (s : Fin 2048) (o : Fin 768) :
    val_main_v23 (F := Ideal) x0 x1 (ix3 b s o)
      = ∑ n : Fin 2048, val_main_v22 (F := Ideal) x0 x1 (ix3 b s n) * val_main_v8 (F := Ideal) x0 x1 (ix3 b n o) := by
  rw [val_main_v23_apply]
  refine Finset.sum_congr rfl fun n _ => ?_
  have hl : lidx_main_v23 (ix3 b s o) n = ix3 b s n := funext fun a => by
    match a with | ⟨0, _⟩ => rfl | ⟨1, _⟩ => rfl | ⟨2, _⟩ => rfl
  have hr : ridx_main_v23 (ix3 b s o) n = ix3 b n o := funext fun a => by
    match a with | ⟨0, _⟩ => rfl | ⟨1, _⟩ => rfl | ⟨2, _⟩ => rfl
  rw [hl, hr]

/-- THE REFERENCE IS SELF-ATTENTION with every weight divided by the mass before the sum, on the three projections. -/
theorem ref_eq (x0 : (⟨Cert.ReferenceIdeal.S8x2048x768, .f32⟩ : BufTy).Contents (Elt Ideal)) (x1 : (⟨Cert.ReferenceIdeal.S3x768x768, .f32⟩ : BufTy).Contents (Elt Ideal)) :
    Cert.ReferenceIdeal.Read.val_main_v23 (F := Ideal) x0 x1
      = Cert.Attention.spreadAttn (Cert.Attention.projArr x0 x1 0) (Cert.Attention.projArr x0 x1 1) (Cert.Attention.projArr x0 x1 2) := by
  funext i
  obtain ⟨b, s, o, rfl⟩ : ∃ (b : Fin 8) (s : Fin 2048) (o : Fin 768), i = ix3 b s o := ⟨i 0, i 1, i 2, eq_ix3 i⟩
  rw [out_apply]
  show _ = ∑ n : Fin 2048, Ideal.div (weight (score (projArr x0 x1 0) (projArr x0 x1 1) b s) n)
      (mass (score (projArr x0 x1 0) (projArr x0 x1 1) b s)) * projArr x0 x1 2 (ix3 b n o)
  refine Finset.sum_congr rfl fun n _ => ?_
  rw [quot_apply, score_row, v_eq]

end Cert.ReferenceIdeal.RefValue

end
-- ==== Proof.Finite.lean ====
/-
  From the precondition to real entries. The precondition's function is the conjunction of two tests, one per argument,
  each saying that every entry's absolute value is below the word of +∞. An extended real whose absolute value
  `max x (-x)` is below `⊤` is neither `⊤` nor `⊥`, so it is a real number.
-/
import proofs.«159391_j18391049961927_2_alg».proof.Proof.Gen.Pre_finite_inputs
import proofs.«159391_j18391049961927_2_alg».proof.Proof.LibReal
import Idealize.ShloMosaic.Lib.ReduceAll
import Idealize.ShloMosaic.Lib.ValueIdx

noncomputable section

namespace Cert.Finite

open Idealize.ShloMosaic Cert.LibReal

/-- The scalar shape has one index. -/
instance : Subsingleton Cert.Pre_finite_inputs.S_.Idx := ⟨fun a b => funext fun d => d.elim0⟩

/-- The word `0x7F800000` is `+∞`. -/
theorem ofBits_top : Ideal.ofBits .f32 0x7F800000#32 = (⊤ : EReal) := by
  simp [Ideal.ofBits, Ideal.ieee]

/-- An extended real whose absolute value is below the word of +∞ is a real number. -/
theorem isReal_of_abs_lt (x : EReal)
    (h : Ideal.cmp .olt (max x (-x)) (Ideal.ofBits .f32 0x7F800000#32) = 1#1) : IsReal x := by
  rw [ofBits_top] at h
  induction x using EReal.rec with
  | bot => simp [Ideal.cmp] at h
  | coe r => exact ⟨r, rfl⟩
  | top => simp [Ideal.cmp] at h

/-- THE PRECONDITION GIVES REAL ENTRIES: when the finiteness test answers 1, every activation and every weight is a real number. -/
theorem real_of_pre (x0 : FVec Ideal Cert.Pre_finite_inputs.S8x2048x768 .f32) (x1 : FVec Ideal Cert.Pre_finite_inputs.S3x768x768 .f32)
    (h : Cert.Pre_finite_inputs.fn (F := Ideal) x0 x1 = fun _ => 1#1) :
    (∀ i, Cert.LibReal.IsReal (x0 i)) ∧ (∀ i, Cert.LibReal.IsReal (x1 i)) := by
  have h0 := congrFun h ValueIdx.ix0
  dsimp only [Cert.Pre_finite_inputs.fn] at h0
  change IntOp.andi _ _ = 1#1 at h0
  obtain ⟨ha, hb⟩ := IntOp.andi_eq_one.1 h0
  refine ⟨fun i => ?_, fun i => ?_⟩
  · exact isReal_of_abs_lt (x0 i) (Host.reduce_andi_all _ _ _ _ _ ha i)
  · exact isReal_of_abs_lt (x1 i) (Host.reduce_andi_all _ _ _ _ _ hb i)

end Cert.Finite

end
-- ==== Proof.lean ====
/-
  The certificate's five claims for the self-attention kernel against its reference.

  Both kernel programs (the printed one at the word level and its reading at exact values) run to the end, fault nowhere and
  leave their two argument arrays unchanged: @main is a stretch of host operations, the projection region, three recasts and
  the attention region, and the run carries every unscoped buffer through these four segments. The reference runs as the
  fold of its host operations. The idealization rewrote nothing. At exact values the kernel's result is the fused attention
  of the three projections (the quotient by the row's mass taken once, after the weighted sum of the values), the
  reference's the spread one (every weight divided by the mass first); for finite inputs the projections are real numbers,
  so the scores are, the mass is a positive real, and the two arrangements agree.
-/
import proofs.«159391_j18391049961927_2_alg».proof.Defs
import proofs.«159391_j18391049961927_2_alg».proof.Proof.Gen.Kernel
import proofs.«159391_j18391049961927_2_alg».proof.Proof.Gen.KernelIdeal
import proofs.«159391_j18391049961927_2_alg».proof.Proof.Gen.ReferenceIdeal
import proofs.«159391_j18391049961927_2_alg».proof.Proof.Gen.Pre_finite_inputs
import proofs.«159391_j18391049961927_2_alg».proof.Proof.Gen.ReferenceIdeal.Run
import proofs.«159391_j18391049961927_2_alg».proof.Proof.Gen.ReferenceIdeal.Read
import proofs.«159391_j18391049961927_2_alg».proof.Proof.BitsRun
import proofs.«159391_j18391049961927_2_alg».proof.Proof.IdealRun
import proofs.«159391_j18391049961927_2_alg».proof.Proof.IdealValue
import proofs.«159391_j18391049961927_2_alg».proof.Proof.RefValue
import proofs.«159391_j18391049961927_2_alg».proof.Proof.Finite
import proofs.«159391_j18391049961927_2_alg».proof.Proof.Attention

noncomputable section

namespace Cert.Proof

open Idealize.ShloMosaic Idealize.ShloMosaic.TcCoe Idealize.SL.Sem Cert.Attention

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- For finite inputs the fused and the spread attention of the projections agree. -/
theorem attn_agree (x : FVec Ideal Cert.Pre_finite_inputs.S8x2048x768 .f32) (w : FVec Ideal Cert.Pre_finite_inputs.S3x768x768 .f32)
    (h : Cert.Pre_finite_inputs.fn (F := Ideal) x w = fun _ => 1#1) :
    fusedAttn (projArr x w 0) (projArr x w 1) (projArr x w 2) = spreadAttn (projArr x w 0) (projArr x w 1) (projArr x w 2) := by
  obtain ⟨hx, hw⟩ := Cert.Finite.real_of_pre x w h
  exact fusedAttn_eq_spreadAttn _ _ _ (isReal_projArr x w hx hw 0) (isReal_projArr x w hx hw 1)

theorem algebraic : Cert.algebraic_KernelIdeal_ReferenceIdeal := by
  intro m ρ m' ρ' hpre hagree
  refine ⟨fun c => spreadAttn
      (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) 0)
      (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) 1)
      (projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) 2), ?_, ?_⟩
  · refine (θ_run Cert.KernelIdeal.defs _ _).mono (fun r h c => ⟨?_, ?_, ?_⟩) (Cert.KernelIdeal.Run.run_main (F := Ideal) m ρ)
    · exact ((h c _ (Cert.KernelIdeal.Run.mem_uc Cert.KernelIdeal.main_v13 (by decide))).trans (Cert.KernelIdeal.Val.result_eq m ρ c)).trans
        (attn_agree _ _ (hpre c))
    · exact (h c _ (Cert.KernelIdeal.Run.mem_uc Cert.KernelIdeal.main_arg0 (by decide))).trans (Cert.KernelIdeal.Run.W4_main_arg0 m ρ c)
    · exact (h c _ (Cert.KernelIdeal.Run.mem_uc Cert.KernelIdeal.main_arg1 (by decide))).trans (Cert.KernelIdeal.Run.W4_main_arg1 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v23_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
